-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x400000 : Shape := ⟨2, ![2, 400000]⟩
abbrev S256x512 : Shape := ⟨2, ![256, 512]⟩
abbrev S512 : Shape := ⟨1, ![512]⟩
abbrev S4x512x512 : Shape := ⟨3, ![4, 512, 512]⟩
abbrev S4x512 : Shape := ⟨2, ![4, 512]⟩
abbrev S512x128 : Shape := ⟨2, ![512, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S4x512 .f32) (main_arg6 : FVec F S512x128 .f32) (main_arg7 : FVec F S128 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg5
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x400000 32) (main_arg2 : FVec F S256x512 .f32) (main_arg3 : FVec F S512 .f32) (main_arg4 : FVec F S4x512x512 .f32) (main_arg5 : FVec F S4x512 .f32) (main_arg6 : FVec F S512x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x512x512 .f32 := Host.absf main_arg4
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg5 main_arg6 main_arg7 main_v13 main_v16
-- ==== Kernel.lean ====
abbrev S50000x256 : Shape := ⟨2, ![50000, 256]⟩
abbrev S2x400000 : Shape := ⟨2, ![2, 400000]⟩
abbrev S256x512 : Shape := ⟨2, ![256, 512]⟩
abbrev S512 : Shape := ⟨1, ![512]⟩
abbrev S4x512x512 : Shape := ⟨3, ![4, 512, 512]⟩
abbrev S4x512 : Shape := ⟨2, ![4, 512]⟩
abbrev S512x128 : Shape := ⟨2, ![512, 128]⟩
abbrev S128 : Shape := ⟨1, ![128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S2000x256 : Shape := ⟨2, ![2000, 256]⟩
abbrev S2000x512 : Shape := ⟨2, ![2000, 512]⟩
abbrev S1x512 : Shape := ⟨2, ![1, 512]⟩
abbrev S1x512x512 : Shape := ⟨3, ![1, 512, 512]⟩
abbrev S512x512 : Shape := ⟨2, ![512, 512]⟩
abbrev S450000x512 : Shape := ⟨2, ![450000, 512]⟩
abbrev S50000x128 : Shape := ⟨2, ![50000, 128]⟩
abbrev S2000x128 : Shape := ⟨2, ![2000, 128]⟩
abbrev S1x128 : Shape := ⟨2, ![1, 128]⟩

abbrev nBuf : Space → Nat
  | .hbm => 146
  | .vmem => 32
  | .smem => 0
  | _ => 0

abbrev hbmTy0_0 (i : Nat) : BufTy := match i % 128 with
  | 0 => ⟨S50000x256, .f32⟩
  | 1 => ⟨S2x400000, .i32⟩
  | 2 => ⟨S256x512, .f32⟩
  | 3 => ⟨S512, .f32⟩
  | 4 => ⟨S4x512x512, .f32⟩
  | 5 => ⟨S4x512, .f32⟩
  | 6 => ⟨S512x128, .f32⟩
  | 7 => ⟨S128, .f32⟩
  | 8 => ⟨S50000, .i32⟩
  | 9 => ⟨S1x400000, .i32⟩
  | 10 => ⟨S400000, .i32⟩
  | 11 => ⟨S450000, .i32⟩
  | 12 => ⟨S1x400000, .i32⟩
  | 13 => ⟨S400000, .i32⟩
  | 14 => ⟨S450000, .i32⟩
  | 15 => ⟨S_, .f32⟩
  | 16 => ⟨S450000, .f32⟩
  | 17 => ⟨S_, .f32⟩
  | 18 => ⟨S50000, .f32⟩
  | 19 => ⟨S450000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S450000, .i32⟩
  | 31 => ⟨S450000, .i1⟩
  | 32 => ⟨S_, .i32⟩
  | 33 => ⟨S450000, .i32⟩
  | 34 => ⟨S450000, .i32⟩
  | 35 => ⟨S450000, .i32⟩
  | 36 => ⟨S450000x1, .i32⟩
  | 37 => ⟨S450000, .f32⟩
  | 38 => ⟨S_, .i32⟩
  | 39 => ⟨S450000, .i32⟩
  | 40 => ⟨S450000, .i1⟩
  | 41 => ⟨S_, .i32⟩
  | 42 => ⟨S450000, .i32⟩
  | 43 => ⟨S450000, .i32⟩
  | 44 => ⟨S450000, .i32⟩
  | 45 => ⟨S450000x1, .i32⟩
  | 46 => ⟨S450000, .f32⟩
  | 47 => ⟨S450000, .f32⟩
  | 48 => ⟨S50000x512, .f32⟩
  | 49 => ⟨S1x512x512, .f32⟩
  | 50 => ⟨S512x512, .f32⟩
  | 51 => ⟨S50000x512, .f32⟩
  | 52 => ⟨S450000x1, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x512, .f32⟩
  | 62 => ⟨S450000x512, .f32⟩
  | 63 => ⟨S450000x512, .f32⟩
  | 64 => ⟨S_, .f32⟩
  | 65 => ⟨S50000x512, .f32⟩
  | 66 => ⟨S450000x1, .i32⟩
  | 67 => ⟨S50000x512, .f32⟩
  | 68 => ⟨S1x512, .f32⟩
  | 69 => ⟨S512, .f32⟩
  | 70 => ⟨S1x512, .f32⟩
  | 71 => ⟨S50000x512, .f32⟩
  | 72 => ⟨S50000x512, .f32⟩
  | 73 => ⟨S1x512x512, .f32⟩
  | 74 => ⟨S512x512, .f32⟩
  | 75 => ⟨S50000x512, .f32⟩
  | 76 => ⟨S450000x1, .f32⟩
  | 77 => ⟨S_, .i32⟩
  | 78 => ⟨S450000, .i32⟩
  | 79 => ⟨S450000, .i1⟩
  | 80 => ⟨S_, .i32⟩
  | 81 => ⟨S450000, .i32⟩
  | 82 => ⟨S450000, .i32⟩
  | 83 => ⟨S450000, .i32⟩
  | 84 => ⟨S450000x1, .i32⟩
  | 85 => ⟨S450000x512, .f32⟩
  | 86 => ⟨S450000x512, .f32⟩
  | 87 => ⟨S450000x512, .f32⟩
  | 88 => ⟨S_, .f32⟩
  | 89 => ⟨S50000x512, .f32⟩
  | 90 => ⟨S450000x1, .i32⟩
  | 91 => ⟨S50000x512, .f32⟩
  | 92 => ⟨S1x512, .f32⟩
  | 93 => ⟨S512, .f32⟩
  | 94 => ⟨S1x512, .f32⟩
  | 95 => ⟨S50000x512, .f32⟩
  | 96 => ⟨S50000x512, .f32⟩
  | 97 => ⟨S1x512x512, .f32⟩
  | 98 => ⟨S512x512, .f32⟩
  | 99 => ⟨S50000x512, .f32⟩
  | 100 => ⟨S450000x1, .f32⟩
  | 101 => ⟨S_, .i32⟩
  | 102 => ⟨S450000, .i32⟩
  | 103 => ⟨S450000, .i1⟩
  | 104 => ⟨S_, .i32⟩
  | 105 => ⟨S450000, .i32⟩
  | 106 => ⟨S450000, .i32⟩
  | 107 => ⟨S450000, .i32⟩
  | 108 => ⟨S450000x1, .i32⟩
  | 109 => ⟨S450000x512, .f32⟩
  | 110 => ⟨S450000x512, .f32⟩
  | 111 => ⟨S450000x512, .f32⟩
  | 112 => ⟨S_, .f32⟩
  | 113 => ⟨S50000x512, .f32⟩
  | 114 => ⟨S450000x1, .i32⟩
  | 115 => ⟨S50000x512, .f32⟩
  | 116 => ⟨S1x512, .f32⟩
  | 117 => ⟨S512, .f32⟩
  | 118 => ⟨S1x512, .f32⟩
  | 119 => ⟨S50000x512, .f32⟩
  | 120 => ⟨S50000x512, .f32⟩
  | 121 => ⟨S1x512x512, .f32⟩
  | 122 => ⟨S512x512, .f32⟩
  | 123 => ⟨S50000x512, .f32⟩
  | 124 => ⟨S450000x1, .f32⟩
  | 125 => ⟨S_, .i32⟩
  | 126 => ⟨S450000, .i32⟩
  | 127 => ⟨S450000, .i1⟩
  | _ => ⟨S50000x256, .f32⟩

abbrev hbmTy0_1 (i : Nat) : BufTy := match i % 128 with
  | 0 => ⟨S_, .i32⟩
  | 1 => ⟨S450000, .i32⟩
  | 2 => ⟨S450000, .i32⟩
  | 3 => ⟨S450000, .i32⟩
  | 4 => ⟨S450000x1, .i32⟩
  | 5 => ⟨S450000x512, .f32⟩
  | 6 => ⟨S450000x512, .f32⟩
  | 7 => ⟨S450000x512, .f32⟩
  | 8 => ⟨S_, .f32⟩
  | 9 => ⟨S50000x512, .f32⟩
  | 10 => ⟨S450000x1, .i32⟩
  | 11 => ⟨S50000x512, .f32⟩
  | 12 => ⟨S1x512, .f32⟩
  | 13 => ⟨S512, .f32⟩
  | 14 => ⟨S1x512, .f32⟩
  | 15 => ⟨S50000x512, .f32⟩
  | 16 => ⟨S50000x512, .f32⟩
  | 17 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S512x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S512x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S2000x512, .f32⟩
  | .local _ .vmem, ⟨23, _⟩ => ⟨S512x512, .f32⟩
  | .local _ .vmem, ⟨24, _⟩ => ⟨S2000x512, .f32⟩
  | .local _ .vmem, ⟨25, _⟩ => ⟨S2000x512, .f32⟩
  | .local _ .vmem, ⟨26, _⟩ => ⟨S2000x512, .f32⟩
  | .local _ .vmem, ⟨27, _⟩ => ⟨S2000x512, .f32⟩
  | .local _ .vmem, ⟨28, _⟩ => ⟨S512x128, .f32⟩
  | .local _ .vmem, ⟨29, _⟩ => ⟨S128, .f32⟩
  | .local _ .vmem, ⟨30, _⟩ => ⟨S2000x128, .f32⟩
  | .local _ .vmem, ⟨31, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_12 : Ref sig .tc := ⟨.hbm, 101, rfl⟩
abbrev main_v77 : Ref sig .tc := ⟨.hbm, 102, rfl⟩
abbrev main_v78 : Ref sig .tc := ⟨.hbm, 103, rfl⟩
abbrev main_c_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_14 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_15 : Ref sig .tc := ⟨.hbm, 125, rfl⟩
abbrev main_v98 : Ref sig .tc := ⟨.hbm, 126, rfl⟩
abbrev main_v99 : Ref sig .tc := ⟨.hbm, 127, rfl⟩
abbrev main_c_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S4x512x512_S1x512x512_0_0_0 : S4x512x512.Slices ![0, 0, 0] S1x512x512
  shapeCasts_S1x512x512_S512x512 : S1x512x512.ShapeCasts S512x512
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .f32 = 32 ∨ (Rect.block (s := S50000x512) S2000x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .f32 = 32 ∨ (Rect.block (s := S50000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S512x128.size a
  hwx5_1 : ∀ i : grid5.Coords, EltTy.bits .f32 = 32 ∨ (Rect.block (s := S512x128) S512x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v114) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S512x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x400000 : Shape := ⟨2, ![2, 400000]⟩
abbrev S256x512 : Shape := ⟨2, ![256, 512]⟩
abbrev S512 : Shape := ⟨1, ![512]⟩
abbrev S4x512x512 : Shape := ⟨3, ![4, 512, 512]⟩
abbrev S4x512 : Shape := ⟨2, ![4, 512]⟩
abbrev S512x128 : Shape := ⟨2, ![512, 128]⟩
abbrev S128 : Shape := ⟨1, ![128]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S1x512 : Shape := ⟨2, ![1, 512]⟩
abbrev S1x512x512 : Shape := ⟨3, ![1, 512, 512]⟩
abbrev S512x512 : Shape := ⟨2, ![512, 512]⟩
abbrev S450000x512 : Shape := ⟨2, ![450000, 512]⟩
abbrev S50000x128 : Shape := ⟨2, ![50000, 128]⟩
abbrev S1x128 : Shape := ⟨2, ![1, 128]⟩

abbrev nBuf : Space → Nat
  | .hbm => 155
  | .vmem => 0
  | .smem => 0
  | _ => 0

abbrev hbmTy0_0 (i : Nat) : BufTy := match i % 128 with
  | 0 => ⟨S50000x256, .f32⟩
  | 1 => ⟨S2x400000, .i32⟩
  | 2 => ⟨S256x512, .f32⟩
  | 3 => ⟨S512, .f32⟩
  | 4 => ⟨S4x512x512, .f32⟩
  | 5 => ⟨S4x512, .f32⟩
  | 6 => ⟨S512x128, .f32⟩
  | 7 => ⟨S128, .f32⟩
  | 8 => ⟨S50000, .i32⟩
  | 9 => ⟨S1x400000, .i32⟩
  | 10 => ⟨S400000, .i32⟩
  | 11 => ⟨S450000, .i32⟩
  | 12 => ⟨S1x400000, .i32⟩
  | 13 => ⟨S400000, .i32⟩
  | 14 => ⟨S450000, .i32⟩
  | 15 => ⟨S_, .f32⟩
  | 16 => ⟨S450000, .f32⟩
  | 17 => ⟨S_, .f32⟩
  | 18 => ⟨S50000, .f32⟩
  | 19 => ⟨S450000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S450000, .i32⟩
  | 31 => ⟨S450000, .i1⟩
  | 32 => ⟨S_, .i32⟩
  | 33 => ⟨S450000, .i32⟩
  | 34 => ⟨S450000, .i32⟩
  | 35 => ⟨S450000, .i32⟩
  | 36 => ⟨S450000x1, .i32⟩
  | 37 => ⟨S450000, .f32⟩
  | 38 => ⟨S_, .i32⟩
  | 39 => ⟨S450000, .i32⟩
  | 40 => ⟨S450000, .i1⟩
  | 41 => ⟨S_, .i32⟩
  | 42 => ⟨S450000, .i32⟩
  | 43 => ⟨S450000, .i32⟩
  | 44 => ⟨S450000, .i32⟩
  | 45 => ⟨S450000x1, .i32⟩
  | 46 => ⟨S450000, .f32⟩
  | 47 => ⟨S450000, .f32⟩
  | 48 => ⟨S50000x512, .f32⟩
  | 49 => ⟨S1x512, .f32⟩
  | 50 => ⟨S50000x512, .f32⟩
  | 51 => ⟨S50000x512, .f32⟩
  | 52 => ⟨S_, .f32⟩
  | 53 => ⟨S50000x512, .f32⟩
  | 54 => ⟨S50000x512, .f32⟩
  | 55 => ⟨S1x512x512, .f32⟩
  | 56 => ⟨S512x512, .f32⟩
  | 57 => ⟨S50000x512, .f32⟩
  | 58 => ⟨S450000x1, .f32⟩
  | 59 => ⟨S_, .i32⟩
  | 60 => ⟨S450000, .i32⟩
  | 61 => ⟨S450000, .i1⟩
  | 62 => ⟨S_, .i32⟩
  | 63 => ⟨S450000, .i32⟩
  | 64 => ⟨S450000, .i32⟩
  | 65 => ⟨S450000, .i32⟩
  | 66 => ⟨S450000x1, .i32⟩
  | 67 => ⟨S450000x512, .f32⟩
  | 68 => ⟨S450000x512, .f32⟩
  | 69 => ⟨S450000x512, .f32⟩
  | 70 => ⟨S_, .f32⟩
  | 71 => ⟨S50000x512, .f32⟩
  | 72 => ⟨S450000x1, .i32⟩
  | 73 => ⟨S50000x512, .f32⟩
  | 74 => ⟨S1x512, .f32⟩
  | 75 => ⟨S512, .f32⟩
  | 76 => ⟨S1x512, .f32⟩
  | 77 => ⟨S50000x512, .f32⟩
  | 78 => ⟨S50000x512, .f32⟩
  | 79 => ⟨S1x512x512, .f32⟩
  | 80 => ⟨S512x512, .f32⟩
  | 81 => ⟨S50000x512, .f32⟩
  | 82 => ⟨S450000x1, .f32⟩
  | 83 => ⟨S_, .i32⟩
  | 84 => ⟨S450000, .i32⟩
  | 85 => ⟨S450000, .i1⟩
  | 86 => ⟨S_, .i32⟩
  | 87 => ⟨S450000, .i32⟩
  | 88 => ⟨S450000, .i32⟩
  | 89 => ⟨S450000, .i32⟩
  | 90 => ⟨S450000x1, .i32⟩
  | 91 => ⟨S450000x512, .f32⟩
  | 92 => ⟨S450000x512, .f32⟩
  | 93 => ⟨S450000x512, .f32⟩
  | 94 => ⟨S_, .f32⟩
  | 95 => ⟨S50000x512, .f32⟩
  | 96 => ⟨S450000x1, .i32⟩
  | 97 => ⟨S50000x512, .f32⟩
  | 98 => ⟨S1x512, .f32⟩
  | 99 => ⟨S512, .f32⟩
  | 100 => ⟨S1x512, .f32⟩
  | 101 => ⟨S50000x512, .f32⟩
  | 102 => ⟨S50000x512, .f32⟩
  | 103 => ⟨S1x512x512, .f32⟩
  | 104 => ⟨S512x512, .f32⟩
  | 105 => ⟨S50000x512, .f32⟩
  | 106 => ⟨S450000x1, .f32⟩
  | 107 => ⟨S_, .i32⟩
  | 108 => ⟨S450000, .i32⟩
  | 109 => ⟨S450000, .i1⟩
  | 110 => ⟨S_, .i32⟩
  | 111 => ⟨S450000, .i32⟩
  | 112 => ⟨S450000, .i32⟩
  | 113 => ⟨S450000, .i32⟩
  | 114 => ⟨S450000x1, .i32⟩
  | 115 => ⟨S450000x512, .f32⟩
  | 116 => ⟨S450000x512, .f32⟩
  | 117 => ⟨S450000x512, .f32⟩
  | 118 => ⟨S_, .f32⟩
  | 119 => ⟨S50000x512, .f32⟩
  | 120 => ⟨S450000x1, .i32⟩
  | 121 => ⟨S50000x512, .f32⟩
  | 122 => ⟨S1x512, .f32⟩
  | 123 => ⟨S512, .f32⟩
  | 124 => ⟨S1x512, .f32⟩
  | 125 => ⟨S50000x512, .f32⟩
  | 126 => ⟨S50000x512, .f32⟩
  | 127 => ⟨S1x512x512, .f32⟩
  | _ => ⟨S50000x256, .f32⟩

abbrev hbmTy0_1 (i : Nat) : BufTy := match i % 128 with
  | 0 => ⟨S512x512, .f32⟩
  | 1 => ⟨S50000x512, .f32⟩
  | 2 => ⟨S450000x1, .f32⟩
  | 3 => ⟨S_, .i32⟩
  | 4 => ⟨S450000, .i32⟩
  | 5 => ⟨S450000, .i1⟩
  | 6 => ⟨S_, .i32⟩
  | 7 => ⟨S450000, .i32⟩
  | 8 => ⟨S450000, .i32⟩
  | 9 => ⟨S450000, .i32⟩
  | 10 => ⟨S450000x1, .i32⟩
  | 11 => ⟨S450000x512, .f32⟩
  | 12 => ⟨S450000x512, .f32⟩
  | 13 => ⟨S450000x512, .f32⟩
  | 14 => ⟨S_, .f32⟩
  | 15 => ⟨S50000x512, .f32⟩
  | 16 => ⟨S450000x1, .i32⟩
  | 17 => ⟨S50000x512, .f32⟩
  | 18 => ⟨S1x512, .f32⟩
  | 19 => ⟨S512, .f32⟩
  | 20 => ⟨S1x512, .f32⟩
  | 21 => ⟨S50000x512, .f32⟩
  | 22 => ⟨S50000x512, .f32⟩
  | 23 => ⟨S50000x128, .f32⟩
  | 24 => ⟨S1x128, .f32⟩
  | 25 => ⟨S50000x128, .f32⟩
  | 26 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_12 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c_15 : Ref sig .tc := ⟨.hbm, 131, rfl⟩
abbrev main_v102 : Ref sig .tc := ⟨.hbm, 132, rfl⟩
abbrev main_v103 : Ref sig .tc := ⟨.hbm, 133, rfl⟩
abbrev main_c_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_17 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  slices_S4x512x512_S1x512x512_0_0_0 : S4x512x512.Slices ![0, 0, 0] S1x512x512
  shapeCasts_S1x512x512_S512x512 : S1x512x512.ShapeCasts S512x512
  bcast_S450000x1_S450000x512_0_1 : S450000x1.BroadcastsInDim S450000x512 (![0, 1] : Fin 2 → Fin S450000x512.rank)
  slices_S4x512_S1x512_0_0 : S4x512.Slices ![0, 0] S1x512
  shapeCasts_S1x512_S512 : S1x512.ShapeCasts S512
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x256_S256x512_S50000x512_1_0_0_1_n_n_wf : DotDims.WF S50000x256 S256x512 S50000x512 [1] [0] [0] [1] [] []
  dot_S50000x512_S512x512_S50000x512_1_0_0_1_n_n_wf : DotDims.WF S50000x512 S512x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x128_S50000x128_1_0_0_1_n_n_wf : DotDims.WF S50000x512 S512x128 S50000x128 [1] [0] [0] [1] [] []

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelRun.lean ====
/-
  The idealized kernel's run with its result named. The program is fourteen segments — host stretches and six
  pipelined regions — and the contents of every buffer at each segment boundary are a fold from the launch memory.
  Every weakly fair execution terminates without a fault in a state whose unscoped buffers hold the last boundary's
  contents; read at the result buffer that is the fold's value there, and at the argument buffers the launch
  contents.
-/
import proofs.«105029_j57286273794622_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    argument buffers as launched. -/
theorem run_result : θ_run defs (onTc (τ := τ) (main (F := F))) ⟨m, fun _ => 0, ρ⟩ (fun r => ∀ c : Dev nD,
      r.2.mem ((c.tc : Thread nD τ).loc main_v115) = W14 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v115 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Whole

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RowsTimes.lean ====
/-
  The three dense stages of the network as whole-array functions over the extended reals, entry by entry:
  a [50000, K] array of node features times a [K, N] weight matrix, optionally plus a bias row, optionally
  clamped below at zero. Both programs compute exactly these; they differ only in how the rows are scheduled.
-/
import Idealize.ShloMosaic.Lib.ValueIdx
import Idealize.ShloMosaic.PureOps.Ideal

noncomputable section

namespace Cert.Dense

open Idealize.ShloMosaic Idealize.ShloMosaic.ValueIdx

/-- Entry (r, c) of features · weights for a 512-wide layer: the sum over k of features (r, k) · weights (k, c). -/
def rowsTimes512 (h : (⟨2, ![50000, 512]⟩ : Shape).Idx → EReal) (w : (⟨2, ![512, 512]⟩ : Shape).Idx → EReal) :
    (⟨2, ![50000, 512]⟩ : Shape).Idx → EReal :=
  fun i => ∑ k : Fin 512, h (ix2 (n0 := 50000) (n1 := 512) (i 0) k) * w (ix2 (n0 := 512) (n1 := 512) k (i 1))

/-- The input layer: entry (r, c) is max (∑ k, x (r, k) · w (k, c) + b c) 0. -/
def inputLayer (x : (⟨2, ![50000, 256]⟩ : Shape).Idx → EReal) (w : (⟨2, ![256, 512]⟩ : Shape).Idx → EReal)
    (b : (⟨1, ![512]⟩ : Shape).Idx → EReal) : (⟨2, ![50000, 512]⟩ : Shape).Idx → EReal :=
  fun i => max ((∑ k : Fin 256, x (ix2 (n0 := 50000) (n1 := 256) (i 0) k) * w (ix2 (n0 := 256) (n1 := 512) k (i 1)))
    + b (ix1 (n := 512) (i 1))) (Ideal.ofBits .f32 0x00000000#32)

/-- The output layer: entry (r, c) is ∑ k, h (r, k) · w (k, c) + b c. -/
def outputLayer (h : (⟨2, ![50000, 512]⟩ : Shape).Idx → EReal) (w : (⟨2, ![512, 128]⟩ : Shape).Idx → EReal)
    (b : (⟨1, ![128]⟩ : Shape).Idx → EReal) : (⟨2, ![50000, 128]⟩ : Shape).Idx → EReal :=
  fun i => (∑ k : Fin 512, h (ix2 (n0 := 50000) (n1 := 512) (i 0) k) * w (ix2 (n0 := 512) (n1 := 128) k (i 1)))
    + b (ix1 (n := 128) (i 1))

end Cert.Dense

end
-- ==== Proof.Layer0.lean ====
/-
  The input layer: the pipelined region multiplies the [50000, 256] node features by the [256, 512] weights, 2000
  rows at a time over 25 grid points, adds the bias row and clamps below at zero. At the exact instance the change
  of float format is the identity and the accumulator starts at zero, so the block written back at point t is rows
  2000·t … 2000·t + 1999 of max (x·W + b) 0; the blocks tile the rows, so the output array ends holding the whole
  layer — as a function of whatever the three input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- The bias vector, given a unit row axis and repeated down the 2000 rows, reads at (p, q) the bias at q. -/
theorem bias_apply (x2 : Vec Ideal S512 .f32) (p : Fin 2000) (q : Fin 512) :
    broadcastTo S2000x512 (shapeCast S1x512 x2 shapeCasts_S512_S1x512) broadcasts_S1x512_S2000x512 (ix2 p q) = x2 (ix1 q) :=
  (broadcastTo_1b_ab_apply _ broadcasts_S1x512_S2000x512 p q).trans (shapeCast_a_1a_apply x2 shapeCasts_S512_S1x512 0 q)

/-- The product part of one block's payload at row p, column q. -/
theorem product_apply (x0 : Vec Ideal S2000x256 .f32) (x1 : Vec Ideal S256x512 .f32) (p : Fin 2000) (q : Fin 512) :
    matmul dot_S2000x256_S256x512_S2000x512_1_0_0_1_n_n none (truncf .bf16 x0 bitsLt_bf16_f32) (truncf .bf16 x1 bitsLt_bf16_f32)
        (constant (F := Ideal) S2000x512 .f32 0x00000000#32) (ix2 p q)
      = ∑ k : Fin 256, x0 (ix2 p k) * x1 (ix2 k q) :=
  Cert.PlainDot.matmul_zero_apply dot_S2000x256_S256x512_S2000x512_1_0_0_1_n_n rfl none _ _ p q

/-- One block's payload at row p, column q. -/
theorem payload_apply (x0 : Vec Ideal S2000x256 .f32) (x1 : Vec Ideal S256x512 .f32) (x2 : Vec Ideal S512 .f32) (p : Fin 2000) (q : Fin 512) :
    k0_pay1 x0 x1 x2 (ix2 p q) = max ((∑ k : Fin 256, x0 (ix2 p k) * x1 (ix2 k q)) + x2 (ix1 q)) (Ideal.ofBits .f32 0x00000000#32) := by
  unfold k0_pay1
  try simp only [shapeCast_self]
  refine congrArg₂ max (congrArg₂ (· + ·) (product_apply x0 x1 p q) (bias_apply x2 p q)) rfl

/-- Where the blocks sit: at point t the feature block and the output block are block row t; the weights and the
    bias are whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block row t of the layer applied to the arrays the region finds. -/
theorem flushed_eq (c : Dev nD) (t : Fin cfg0.N) :
    (dat0 V c).flushed 3 t
      = ((cfg0.win 3).blk t).view.read (Elt Ideal) (inputLayer (V c main_arg0) (V c main_arg2) (V c main_arg3)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x512) zero_offsets, View.ld_unit_zero (S := S512) zero_offset]
  obtain ⟨e0, e1, e2, e3, e4, e5, e6⟩ := block_indices t
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (ix2 p q)
    = inputLayer (V c main_arg0) (V c main_arg2) (V c main_arg3) (((cfg0.win 3).blk t).view.emb (ix2 p q))
  refine (payload_apply (iblk0 V c 0 t) (iblk0 V c 1 t) (iblk0 V c 2 t) p q).trans ?_
  unfold inputLayer
  have hp : p.val < 2000 := p.isLt
  have hq : q.val < 512 := q.isLt
  refine congrArg₂ max (congrArg₂ (· + ·) (Finset.sum_congr rfl fun k _ => ?_) ?_) rfl
  · have hk : k.val < 256 := k.isLt
    have h0 : ((cfg0.win 0).blk t).view.emb (ix2 p k)
        = ix2 (n0 := 50000) (n1 := 256) ((((cfg0.win 3).blk t).view.emb (ix2 p q)) 0) k := by
      funext a; apply Fin.ext
      match a with
      | ⟨0, _⟩ => show win0_0.index t (0 : Fin 2) * 2000 + 1 * p.val = win0_3.index t (0 : Fin 2) * 2000 + 1 * p.val; omega
      | ⟨1, _⟩ => show win0_0.index t (1 : Fin 2) * 256 + 1 * k.val = k.val; omega
    have h1 : ((cfg0.win 1).blk t).view.emb (ix2 k q)
        = ix2 (n0 := 256) (n1 := 512) k ((((cfg0.win 3).blk t).view.emb (ix2 p q)) 1) := by
      funext a; apply Fin.ext
      match a with
      | ⟨0, _⟩ => show win0_1.index t (0 : Fin 2) * 256 + 1 * k.val = k.val; omega
      | ⟨1, _⟩ => show win0_1.index t (1 : Fin 2) * 512 + 1 * q.val = win0_3.index t (1 : Fin 2) * 512 + 1 * q.val; omega
    have hL : (iblk0 V c 0 t (ix2 p k) : EReal)
        = (V c main_arg0 : S50000x256.Idx → EReal) (ix2 (n0 := 50000) (n1 := 256) ((((cfg0.win 3).blk t).view.emb (ix2 p q)) 0) k) := by
      show (V c main_arg0 : S50000x256.Idx → EReal) (((cfg0.win 0).blk t).view.emb (ix2 p k)) = _
      rw [h0]
    have hR : (iblk0 V c 1 t (ix2 k q) : EReal)
        = (V c main_arg2 : S256x512.Idx → EReal) (ix2 (n0 := 256) (n1 := 512) k ((((cfg0.win 3).blk t).view.emb (ix2 p q)) 1)) := by
      show (V c main_arg2 : S256x512.Idx → EReal) (((cfg0.win 1).blk t).view.emb (ix2 k q)) = _
      rw [h1]
    exact congrArg₂ (fun a b : EReal => a * b) hL hR
  · have h2 : ((cfg0.win 2).blk t).view.emb (ix1 q)
        = ix1 (n := 512) ((((cfg0.win 3).blk t).view.emb (ix2 p q)) 1) := by
      funext a; apply Fin.ext
      match a with
      | ⟨0, _⟩ => show win0_2.index t (0 : Fin 1) * 512 + 1 * q.val = win0_3.index t (1 : Fin 2) * 512 + 1 * q.val; omega
    show (V c main_arg3 : S512.Idx → EReal) (((cfg0.win 2).blk t).view.emb (ix1 q)) = _
    rw [h2]

/-- An index of the output array is in point t's block iff its row is in block row t. -/
theorem mem_block (t : Fin cfg0.N) (i : S50000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v30).slice (win0_3.rect t)).set ↔ _
  rw [View.set_slice_whole, Rect.mem_set_unit]
  exact Iff.rfl

/-- The 25 block rows tile the 50000 rows: row r lies in block row r / 2000. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨e0, e1, e2, e3, e4, e5, e6⟩ := block_indices t
  have ht : t.val = (i 0).val / 2000 := rfl
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

/-- After the region its output array holds the layer applied to the three arrays it found on entry. -/
theorem layer (c : Dev nD) :
    (dat0 V c).arrAt 3 cfg0.N = inputLayer (V c main_arg0) (V c main_arg2) (V c main_arg3) :=
  (dat0 V c).arrAt_eq_of_cover 3 (inputLayer (V c main_arg0) (V c main_arg2) (V c main_arg3)) (fun t _ => flushed_eq V c t) covered

end Cert.KernelIdeal.Layer0

end
-- ==== Proof.Layer1.lean ====
/-
  Layer product 1: the pipelined region multiplies a [50000, 512] array of node features by a [512, 512] weight
  matrix, 2000 rows at a time over a grid of 25 points. Read at the exact instance (the change of float format is
  the identity, the accumulator starts at zero) the block written back at point t is rows 2000·t … 2000·t + 1999 of the
  ordinary matrix product, the blocks tile the rows, and so the output array ends holding the whole product — as a
  function of whatever the two input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- One block's payload at row p, column q: the inner product of row p of the feature block with column q of the
    weights. -/
theorem payload_apply (x0 : Vec Ideal S2000x512 .f32) (x1 : Vec Ideal S512x512 .f32) (p : Fin 2000) (q : Fin 512) :
    k1_pay1 x0 x1 (ix2 p q) = ∑ k : Fin 512, x0 (ix2 p k) * x1 (ix2 k q) := by
  unfold k1_pay1
  refine (Cert.PlainDot.matmul_zero_apply dot_S2000x512_S512x512_S2000x512_1_0_0_1_n_n rfl none _ _ p q).trans ?_
  simp only [truncf_apply, shapeCast_self]

/-- Where the blocks sit: at point t the feature block and the output block are block row t, the weight block is
    the whole matrix. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block row t of the product of the arrays the region finds. -/
theorem flushed_eq (c : Dev nD) (t : Fin cfg1.N) :
    (dat1 V c).flushed 2 t
      = ((cfg1.win 2).blk t).view.read (Elt Ideal) (rowsTimes512 (V c main_v30) (V c main_v32)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x512) zero_offsets]
  obtain ⟨e0, e1, e2, e3, e4, e5⟩ := block_indices t
  funext j
  obtain ⟨p, q, rfl⟩ : ∃ (p : Fin 2000) (q : Fin 512), j = ix2 p q := ⟨j 0, j 1, eq_ix2 j⟩
  show k1_pay1 (iblk1 V c 0 t) (iblk1 V c 1 t) (ix2 p q)
    = rowsTimes512 (V c main_v30) (V c main_v32) (((cfg1.win 2).blk t).view.emb (ix2 p q))
  refine (payload_apply (iblk1 V c 0 t) (iblk1 V c 1 t) p q).trans ?_
  unfold rowsTimes512
  refine Finset.sum_congr rfl fun k _ => ?_
  have hp : p.val < 2000 := p.isLt
  have hq : q.val < 512 := q.isLt
  have hk : k.val < 512 := k.isLt
  have h0 : ((cfg1.win 0).blk t).view.emb (ix2 p k)
      = ix2 (n0 := 50000) (n1 := 512) ((((cfg1.win 2).blk t).view.emb (ix2 p q)) 0) k := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 512 + 1 * k.val = k.val; omega
  have h1 : ((cfg1.win 1).blk t).view.emb (ix2 k q)
      = ix2 (n0 := 512) (n1 := 512) k ((((cfg1.win 2).blk t).view.emb (ix2 p q)) 1) := by
    funext a; apply Fin.ext
    match a with
    | ⟨0, _⟩ => show win1_1.index t (0 : Fin 2) * 512 + 1 * k.val = k.val; omega
    | ⟨1, _⟩ => show win1_1.index t (1 : Fin 2) * 512 + 1 * q.val = win1_2.index t (1 : Fin 2) * 512 + 1 * q.val; omega
  have hL : (iblk1 V c 0 t (ix2 p k) : EReal)
      = (V c main_v30 : S50000x512.Idx → EReal) (ix2 (n0 := 50000) (n1 := 512) ((((cfg1.win 2).blk t).view.emb (ix2 p q)) 0) k) := by
    show (V c main_v30 : S50000x512.Idx → EReal) (((cfg1.win 0).blk t).view.emb (ix2 p k)) = _
    rw [h0]
  have hR : (iblk1 V c 1 t (ix2 k q) : EReal)
      = (V c main_v32 : S512x512.Idx → EReal) (ix2 (n0 := 512) (n1 := 512) k ((((cfg1.win 2).blk t).view.emb (ix2 p q)) 1)) := by
    show (V c main_v32 : S512x512.Idx → EReal) (((cfg1.win 1).blk t).view.emb (ix2 k q)) = _
    rw [h1]
  exact congrArg₂ (fun a b : EReal => a * b) hL hR

/-- An index of the output array is in point t's block iff its row is in block row t. -/
theorem mem_block (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v33).slice (win1_2.rect t)).set ↔ _
  rw [View.set_slice_whole, Rect.mem_set_unit]
  exact Iff.rfl

/-- The 25 block rows tile the 50000 rows: row r lies in block row r / 2000. -/
theorem covered (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  have hN : cfg1.N = 25 := N_1
  let t : Fin cfg1.N := ⟨(i 0).val / 2000, by rw [hN]; omega⟩
  obtain ⟨e0, e1, e2, e3, e4, e5⟩ := block_indices t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- After the region its output array holds the product of the two arrays it found on entry. -/
theorem product (c : Dev nD) :
    (dat1 V c).arrAt 2 cfg1.N = rowsTimes512 (V c main_v30) (V c main_v32) :=
  (dat1 V c).arrAt_eq_of_cover 2 (rowsTimes512 (V c main_v30) (V c main_v32)) (fun t _ => flushed_eq V c t) covered

end Cert.KernelIdeal.Layer1

end
-- ==== Proof.Layer2.lean ====
/-
  Layer product 2: the pipelined region multiplies a [50000, 512] array of node features by a [512, 512] weight
  matrix, 2000 rows at a time over a grid of 25 points. Read at the exact instance (the change of float format is
  the identity, the accumulator starts at zero) the block written back at point t is rows 2000·t … 2000·t + 1999 of the
  ordinary matrix product, the blocks tile the rows, and so the output array ends holding the whole product — as a
  function of whatever the two input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- One block's payload at row p, column q: the inner product of row p of the feature block with column q of the
    weights. -/
theorem payload_apply (x0 : Vec Ideal S2000x512 .f32) (x1 : Vec Ideal S512x512 .f32) (p : Fin 2000) (q : Fin 512) :
    k2_pay1 x0 x1 (ix2 p q) = ∑ k : Fin 512, x0 (ix2 p k) * x1 (ix2 k q) := by
  unfold k2_pay1
  refine (Cert.PlainDot.matmul_zero_apply dot_S2000x512_S512x512_S2000x512_1_0_0_1_n_n rfl none _ _ p q).trans ?_
  simp only [truncf_apply, shapeCast_self]

/-- Where the blocks sit: at point t the feature block and the output block are block row t, the weight block is
    the whole matrix. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block row t of the product of the arrays the region finds. -/
theorem flushed_eq (c : Dev nD) (t : Fin cfg2.N) :
    (dat2 V c).flushed 2 t
      = ((cfg2.win 2).blk t).view.read (Elt Ideal) (rowsTimes512 (V c main_v51) (V c main_v53)) := by
  show (cfg2.win 2).cut (grid2.coords t) ((dat2 V c).after 2 t) = _
  rw [after2_2]
  unfold out2_2
  rw [View.canon_unit_zero zero_offsets]
  simp only [View.ld_unit_zero (S := S2000x512) zero_offsets, View.ld_unit_zero (S := S512x512) zero_offsets]
  obtain ⟨e0, e1, e2, e3, e4, e5⟩ := block_indices t
  funext j
  obtain ⟨p, q, rfl⟩ : ∃ (p : Fin 2000) (q : Fin 512), j = ix2 p q := ⟨j 0, j 1, eq_ix2 j⟩
  show k2_pay1 (iblk2 V c 0 t) (iblk2 V c 1 t) (ix2 p q)
    = rowsTimes512 (V c main_v51) (V c main_v53) (((cfg2.win 2).blk t).view.emb (ix2 p q))
  refine (payload_apply (iblk2 V c 0 t) (iblk2 V c 1 t) p q).trans ?_
  unfold rowsTimes512
  refine Finset.sum_congr rfl fun k _ => ?_
  have hp : p.val < 2000 := p.isLt
  have hq : q.val < 512 := q.isLt
  have hk : k.val < 512 := k.isLt
  have h0 : ((cfg2.win 0).blk t).view.emb (ix2 p k)
      = ix2 (n0 := 50000) (n1 := 512) ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 512 + 1 * k.val = k.val; omega
  have h1 : ((cfg2.win 1).blk t).view.emb (ix2 k q)
      = ix2 (n0 := 512) (n1 := 512) k ((((cfg2.win 2).blk t).view.emb (ix2 p q)) 1) := by
    funext a; apply Fin.ext
    match a with
    | ⟨0, _⟩ => show win2_1.index t (0 : Fin 2) * 512 + 1 * k.val = k.val; omega
    | ⟨1, _⟩ => show win2_1.index t (1 : Fin 2) * 512 + 1 * q.val = win2_2.index t (1 : Fin 2) * 512 + 1 * q.val; omega
  have hL : (iblk2 V c 0 t (ix2 p k) : EReal)
      = (V c main_v51 : S50000x512.Idx → EReal) (ix2 (n0 := 50000) (n1 := 512) ((((cfg2.win 2).blk t).view.emb (ix2 p q)) 0) k) := by
    show (V c main_v51 : S50000x512.Idx → EReal) (((cfg2.win 0).blk t).view.emb (ix2 p k)) = _
    rw [h0]
  have hR : (iblk2 V c 1 t (ix2 k q) : EReal)
      = (V c main_v53 : S512x512.Idx → EReal) (ix2 (n0 := 512) (n1 := 512) k ((((cfg2.win 2).blk t).view.emb (ix2 p q)) 1)) := by
    show (V c main_v53 : S512x512.Idx → EReal) (((cfg2.win 1).blk t).view.emb (ix2 k q)) = _
    rw [h1]
  exact congrArg₂ (fun a b : EReal => a * b) hL hR

/-- An index of the output array is in point t's block iff its row is in block row t. -/
theorem mem_block (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v54).slice (win2_2.rect t)).set ↔ _
  rw [View.set_slice_whole, Rect.mem_set_unit]
  exact Iff.rfl

/-- The 25 block rows tile the 50000 rows: row r lies in block row r / 2000. -/
theorem covered (i : S50000x512.Idx) :
    ∃ t : Fin cfg2.N, (cfg2.win 2).flush t = true ∧ i ∈ ((cfg2.win 2).blk t).view.set := by
  have hi0 : (i 0).val < 50000 := (i 0).isLt
  have hi1 : (i 1).val < 512 := (i 1).isLt
  have hN : cfg2.N = 25 := N_2
  let t : Fin cfg2.N := ⟨(i 0).val / 2000, by rw [hN]; omega⟩
  obtain ⟨e0, e1, e2, e3, e4, e5⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 512 ≤ (i 1).val ∧ (i 1).val < win2_2.index t (1 : Fin 2) * 512 + 512; omega

/-- After the region its output array holds the product of the two arrays it found on entry. -/
theorem product (c : Dev nD) :
    (dat2 V c).arrAt 2 cfg2.N = rowsTimes512 (V c main_v51) (V c main_v53) :=
  (dat2 V c).arrAt_eq_of_cover 2 (rowsTimes512 (V c main_v51) (V c main_v53)) (fun t _ => flushed_eq V c t) covered

end Cert.KernelIdeal.Layer2

end
-- ==== Proof.Layer3.lean ====
/-
  Layer product 3: the pipelined region multiplies a [50000, 512] array of node features by a [512, 512] weight
  matrix, 2000 rows at a time over a grid of 25 points. Read at the exact instance (the change of float format is
  the identity, the accumulator starts at zero) the block written back at point t is rows 2000·t … 2000·t + 1999 of the
  ordinary matrix product, the blocks tile the rows, and so the output array ends holding the whole product — as a
  function of whatever the two input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- One block's payload at row p, column q: the inner product of row p of the feature block with column q of the
    weights. -/
theorem payload_apply (x0 : Vec Ideal S2000x512 .f32) (x1 : Vec Ideal S512x512 .f32) (p : Fin 2000) (q : Fin 512) :
    k3_pay1 x0 x1 (ix2 p q) = ∑ k : Fin 512, x0 (ix2 p k) * x1 (ix2 k q) := by
  unfold k3_pay1
  refine (Cert.PlainDot.matmul_zero_apply dot_S2000x512_S512x512_S2000x512_1_0_0_1_n_n rfl none _ _ p q).trans ?_
  simp only [truncf_apply, shapeCast_self]

/-- Where the blocks sit: at point t the feature block and the output block are block row t, the weight block is
    the whole matrix. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block row t of the product of the arrays the region finds. -/
theorem flushed_eq (c : Dev nD) (t : Fin cfg3.N) :
    (dat3 V c).flushed 2 t
      = ((cfg3.win 2).blk t).view.read (Elt Ideal) (rowsTimes512 (V c main_v72) (V c main_v74)) := by
  show (cfg3.win 2).cut (grid3.coords t) ((dat3 V c).after 2 t) = _
  rw [after3_2]
  unfold out3_2
  rw [View.canon_unit_zero zero_offsets]
  simp only [View.ld_unit_zero (S := S2000x512) zero_offsets, View.ld_unit_zero (S := S512x512) zero_offsets]
  obtain ⟨e0, e1, e2, e3, e4, e5⟩ := block_indices t
  funext j
  obtain ⟨p, q, rfl⟩ : ∃ (p : Fin 2000) (q : Fin 512), j = ix2 p q := ⟨j 0, j 1, eq_ix2 j⟩
  show k3_pay1 (iblk3 V c 0 t) (iblk3 V c 1 t) (ix2 p q)
    = rowsTimes512 (V c main_v72) (V c main_v74) (((cfg3.win 2).blk t).view.emb (ix2 p q))
  refine (payload_apply (iblk3 V c 0 t) (iblk3 V c 1 t) p q).trans ?_
  unfold rowsTimes512
  refine Finset.sum_congr rfl fun k _ => ?_
  have hp : p.val < 2000 := p.isLt
  have hq : q.val < 512 := q.isLt
  have hk : k.val < 512 := k.isLt
  have h0 : ((cfg3.win 0).blk t).view.emb (ix2 p k)
      = ix2 (n0 := 50000) (n1 := 512) ((((cfg3.win 2).blk t).view.emb (ix2 p q)) 0) k := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 512 + 1 * k.val = k.val; omega
  have h1 : ((cfg3.win 1).blk t).view.emb (ix2 k q)
      = ix2 (n0 := 512) (n1 := 512) k ((((cfg3.win 2).blk t).view.emb (ix2 p q)) 1) := by
    funext a; apply Fin.ext
    match a with
    | ⟨0, _⟩ => show win3_1.index t (0 : Fin 2) * 512 + 1 * k.val = k.val; omega
    | ⟨1, _⟩ => show win3_1.index t (1 : Fin 2) * 512 + 1 * q.val = win3_2.index t (1 : Fin 2) * 512 + 1 * q.val; omega
  have hL : (iblk3 V c 0 t (ix2 p k) : EReal)
      = (V c main_v72 : S50000x512.Idx → EReal) (ix2 (n0 := 50000) (n1 := 512) ((((cfg3.win 2).blk t).view.emb (ix2 p q)) 0) k) := by
    show (V c main_v72 : S50000x512.Idx → EReal) (((cfg3.win 0).blk t).view.emb (ix2 p k)) = _
    rw [h0]
  have hR : (iblk3 V c 1 t (ix2 k q) : EReal)
      = (V c main_v74 : S512x512.Idx → EReal) (ix2 (n0 := 512) (n1 := 512) k ((((cfg3.win 2).blk t).view.emb (ix2 p q)) 1)) := by
    show (V c main_v74 : S512x512.Idx → EReal) (((cfg3.win 1).blk t).view.emb (ix2 k q)) = _
    rw [h1]
  exact congrArg₂ (fun a b : EReal => a * b) hL hR

/-- An index of the output array is in point t's block iff its row is in block row t. -/
theorem mem_block (t : Fin cfg3.N) (i : S50000x512.Idx) :
    i ∈ ((cfg3.win 2).blk t).view.set ↔ ∀ a : Fin 2, win3_2.index t a * S2000x512.size a ≤ (i a).val ∧ (i a).val < win3_2.index t a * S2000x512.size a + S2000x512.size a := by
  show i ∈ ((View.whole main_v75).slice (win3_2.rect t)).set ↔ _
  rw [View.set_slice_whole, Rect.mem_set_unit]
  exact Iff.rfl

/-- The 25 block rows tile the 50000 rows: row r lies in block row r / 2000. -/
theorem covered (i : S50000x512.Idx) :
    ∃ t : Fin cfg3.N, (cfg3.win 2).flush t = true ∧ i ∈ ((cfg3.win 2).blk t).view.set := by
  have hi0 : (i 0).val < 50000 := (i 0).isLt
  have hi1 : (i 1).val < 512 := (i 1).isLt
  have hN : cfg3.N = 25 := N_3
  let t : Fin cfg3.N := ⟨(i 0).val / 2000, by rw [hN]; omega⟩
  obtain ⟨e0, e1, e2, e3, e4, e5⟩ := block_indices t
  have ht : t.val = (i 0).val / 2000 := rfl
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 512 ≤ (i 1).val ∧ (i 1).val < win3_2.index t (1 : Fin 2) * 512 + 512; omega

/-- After the region its output array holds the product of the two arrays it found on entry. -/
theorem product (c : Dev nD) :
    (dat3 V c).arrAt 2 cfg3.N = rowsTimes512 (V c main_v72) (V c main_v74) :=
  (dat3 V c).arrAt_eq_of_cover 2 (rowsTimes512 (V c main_v72) (V c main_v74)) (fun t _ => flushed_eq V c t) covered

end Cert.KernelIdeal.Layer3

end
-- ==== Proof.Layer4.lean ====
/-
  Layer product 4: the pipelined region multiplies a [50000, 512] array of node features by a [512, 512] weight
  matrix, 2000 rows at a time over a grid of 25 points. Read at the exact instance (the change of float format is
  the identity, the accumulator starts at zero) the block written back at point t is rows 2000·t … 2000·t + 1999 of the
  ordinary matrix product, the blocks tile the rows, and so the output array ends holding the whole product — as a
  function of whatever the two input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer4

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl

/-- One block's payload at row p, column q: the inner product of row p of the feature block with column q of the
    weights. -/
theorem payload_apply (x0 : Vec Ideal S2000x512 .f32) (x1 : Vec Ideal S512x512 .f32) (p : Fin 2000) (q : Fin 512) :
    k4_pay1 x0 x1 (ix2 p q) = ∑ k : Fin 512, x0 (ix2 p k) * x1 (ix2 k q) := by
  unfold k4_pay1
  refine (Cert.PlainDot.matmul_zero_apply dot_S2000x512_S512x512_S2000x512_1_0_0_1_n_n rfl none _ _ p q).trans ?_
  simp only [truncf_apply, shapeCast_self]

/-- Where the blocks sit: at point t the feature block and the output block are block row t, the weight block is
    the whole matrix. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block row t of the product of the arrays the region finds. -/
theorem flushed_eq (c : Dev nD) (t : Fin cfg4.N) :
    (dat4 V c).flushed 2 t
      = ((cfg4.win 2).blk t).view.read (Elt Ideal) (rowsTimes512 (V c main_v93) (V c main_v95)) := by
  show (cfg4.win 2).cut (grid4.coords t) ((dat4 V c).after 2 t) = _
  rw [after4_2]
  unfold out4_2
  rw [View.canon_unit_zero zero_offsets]
  simp only [View.ld_unit_zero (S := S2000x512) zero_offsets, View.ld_unit_zero (S := S512x512) zero_offsets]
  obtain ⟨e0, e1, e2, e3, e4, e5⟩ := block_indices t
  funext j
  obtain ⟨p, q, rfl⟩ : ∃ (p : Fin 2000) (q : Fin 512), j = ix2 p q := ⟨j 0, j 1, eq_ix2 j⟩
  show k4_pay1 (iblk4 V c 0 t) (iblk4 V c 1 t) (ix2 p q)
    = rowsTimes512 (V c main_v93) (V c main_v95) (((cfg4.win 2).blk t).view.emb (ix2 p q))
  refine (payload_apply (iblk4 V c 0 t) (iblk4 V c 1 t) p q).trans ?_
  unfold rowsTimes512
  refine Finset.sum_congr rfl fun k _ => ?_
  have hp : p.val < 2000 := p.isLt
  have hq : q.val < 512 := q.isLt
  have hk : k.val < 512 := k.isLt
  have h0 : ((cfg4.win 0).blk t).view.emb (ix2 p k)
      = ix2 (n0 := 50000) (n1 := 512) ((((cfg4.win 2).blk t).view.emb (ix2 p q)) 0) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 512 + 1 * k.val = k.val; omega
  have h1 : ((cfg4.win 1).blk t).view.emb (ix2 k q)
      = ix2 (n0 := 512) (n1 := 512) k ((((cfg4.win 2).blk t).view.emb (ix2 p q)) 1) := by
    funext a; apply Fin.ext
    match a with
    | ⟨0, _⟩ => show win4_1.index t (0 : Fin 2) * 512 + 1 * k.val = k.val; omega
    | ⟨1, _⟩ => show win4_1.index t (1 : Fin 2) * 512 + 1 * q.val = win4_2.index t (1 : Fin 2) * 512 + 1 * q.val; omega
  have hL : (iblk4 V c 0 t (ix2 p k) : EReal)
      = (V c main_v93 : S50000x512.Idx → EReal) (ix2 (n0 := 50000) (n1 := 512) ((((cfg4.win 2).blk t).view.emb (ix2 p q)) 0) k) := by
    show (V c main_v93 : S50000x512.Idx → EReal) (((cfg4.win 0).blk t).view.emb (ix2 p k)) = _
    rw [h0]
  have hR : (iblk4 V c 1 t (ix2 k q) : EReal)
      = (V c main_v95 : S512x512.Idx → EReal) (ix2 (n0 := 512) (n1 := 512) k ((((cfg4.win 2).blk t).view.emb (ix2 p q)) 1)) := by
    show (V c main_v95 : S512x512.Idx → EReal) (((cfg4.win 1).blk t).view.emb (ix2 k q)) = _
    rw [h1]
  exact congrArg₂ (fun a b : EReal => a * b) hL hR

/-- An index of the output array is in point t's block iff its row is in block row t. -/
theorem mem_block (t : Fin cfg4.N) (i : S50000x512.Idx) :
    i ∈ ((cfg4.win 2).blk t).view.set ↔ ∀ a : Fin 2, win4_2.index t a * S2000x512.size a ≤ (i a).val ∧ (i a).val < win4_2.index t a * S2000x512.size a + S2000x512.size a := by
  show i ∈ ((View.whole main_v96).slice (win4_2.rect t)).set ↔ _
  rw [View.set_slice_whole, Rect.mem_set_unit]
  exact Iff.rfl

/-- The 25 block rows tile the 50000 rows: row r lies in block row r / 2000. -/
theorem covered (i : S50000x512.Idx) :
    ∃ t : Fin cfg4.N, (cfg4.win 2).flush t = true ∧ i ∈ ((cfg4.win 2).blk t).view.set := by
  have hi0 : (i 0).val < 50000 := (i 0).isLt
  have hi1 : (i 1).val < 512 := (i 1).isLt
  have hN : cfg4.N = 25 := N_4
  let t : Fin cfg4.N := ⟨(i 0).val / 2000, by rw [hN]; omega⟩
  obtain ⟨e0, e1, e2, e3, e4, e5⟩ := block_indices t
  have ht : t.val = (i 0).val / 2000 := rfl
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 512 ≤ (i 1).val ∧ (i 1).val < win4_2.index t (1 : Fin 2) * 512 + 512; omega

/-- After the region its output array holds the product of the two arrays it found on entry. -/
theorem product (c : Dev nD) :
    (dat4 V c).arrAt 2 cfg4.N = rowsTimes512 (V c main_v93) (V c main_v95) :=
  (dat4 V c).arrAt_eq_of_cover 2 (rowsTimes512 (V c main_v93) (V c main_v95)) (fun t _ => flushed_eq V c t) covered

end Cert.KernelIdeal.Layer4

end
-- ==== Proof.Layer5.lean ====
/-
  The output layer: the pipelined region multiplies the [50000, 512] node features by the [512, 128] weights, 2000
  rows at a time over 25 grid points, and adds the bias row. At the exact instance the block written back at point t
  is rows 2000·t … 2000·t + 1999 of h·W + b; the blocks tile the rows, so the output array ends holding the whole
  layer — as a function of whatever the three input arrays hold when the region is entered.
-/
import proofs.«105029_j57286273794622_1_alg».proof.Proof.Gen.KernelIdeal.Frame
import proofs.«105029_j57286273794622_1_alg».proof.Proof.LibPlainDot
import proofs.«105029_j57286273794622_1_alg».proof.Proof.RowsTimes
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Layer5

open Cert.KernelIdeal Cert.KernelIdeal.Gen Cert.Dense

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- The bias vector, given a unit row axis and repeated down the 2000 rows, reads at (p, q) the bias at q. -/
theorem bias_apply (x2 : Vec Ideal S128 .f32) (p : Fin 2000) (q : Fin 128) :
    broadcastTo S2000x128 (shapeCast S1x128 x2 shapeCasts_S128_S1x128) broadcasts_S1x128_S2000x128 (ix2 p q) = x2 (ix1 q) :=
  (broadcastTo_1b_ab_apply _ broadcasts_S1x128_S2000x128 p q).trans (shapeCast_a_1a_apply x2 shapeCasts_S128_S1x128 0 q)

/-- The product part of one block's payload at row p, column q. -/
theorem product_apply (x0 : Vec Ideal S2000x512 .f32) (x1 : Vec Ideal S512x128 .f32) (p : Fin 2000) (q : Fin 128) :
    matmul dot_S2000x512_S512x128_S2000x128_1_0_0_1_n_n none (truncf .bf16 x0 bitsLt_bf16_f32) (truncf .bf16 x1 bitsLt_bf16_f32)
        (constant (F := Ideal) S2000x128 .f32 0x00000000#32) (ix2 p q)
      = ∑ k : Fin 512, x0 (ix2 p k) * x1 (ix2 k q) :=
  Cert.PlainDot.matmul_zero_apply dot_S2000x512_S512x128_S2000x128_1_0_0_1_n_n rfl none _ _ p q

/-- One block's payload at row p, column q. -/
theorem payload_apply (x0 : Vec Ideal S2000x512 .f32) (x1 : Vec Ideal S512x128 .f32) (x2 : Vec Ideal S128 .f32) (p : Fin 2000) (q : Fin 128) :
    k5_pay1 x0 x1 x2 (ix2 p q) = (∑ k : Fin 512, x0 (ix2 p k) * x1 (ix2 k q)) + x2 (ix1 q) := by
  unfold k5_pay1
  try simp only [shapeCast_self]
  exact congrArg₂ (· + ·) (product_apply x0 x1 p q) (bias_apply x2 p q)

/-- Where the blocks sit: at point t the feature block and the output block are block row t; the weights and the
    bias are whole. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- What point t writes back is block row t of the layer applied to the arrays the region finds. -/
theorem flushed_eq (c : Dev nD) (t : Fin cfg5.N) :
    (dat5 V c).flushed 3 t
      = ((cfg5.win 3).blk t).view.read (Elt Ideal) (outputLayer (V c main_v114) (V c main_arg6) (V c main_arg7)) := by
  show (cfg5.win 3).cut (grid5.coords t) ((dat5 V c).after 3 t) = _
  rw [after5_3]
  unfold out5_3
  rw [View.canon_unit_zero zero_offsets]
  simp only [View.ld_unit_zero (S := S2000x512) zero_offsets, View.ld_unit_zero (S := S512x128) zero_offsets, View.ld_unit_zero (S := S128) zero_offset]
  obtain ⟨e0, e1, e2, e3, e4, e5, e6⟩ := block_indices t
  funext j
  obtain ⟨p, q, rfl⟩ : ∃ (p : Fin 2000) (q : Fin 128), j = ix2 p q := ⟨j 0, j 1, eq_ix2 j⟩
  show k5_pay1 (iblk5 V c 0 t) (iblk5 V c 1 t) (iblk5 V c 2 t) (ix2 p q)
    = outputLayer (V c main_v114) (V c main_arg6) (V c main_arg7) (((cfg5.win 3).blk t).view.emb (ix2 p q))
  refine (payload_apply (iblk5 V c 0 t) (iblk5 V c 1 t) (iblk5 V c 2 t) p q).trans ?_
  unfold outputLayer
  have hp : p.val < 2000 := p.isLt
  have hq : q.val < 128 := q.isLt
  refine congrArg₂ (· + ·) (Finset.sum_congr rfl fun k _ => ?_) ?_
  · have hk : k.val < 512 := k.isLt
    have h0 : ((cfg5.win 0).blk t).view.emb (ix2 p k)
        = ix2 (n0 := 50000) (n1 := 512) ((((cfg5.win 3).blk t).view.emb (ix2 p q)) 0) k := by
      funext a; apply Fin.ext
      match a with
      | ⟨0, _⟩ => show win5_0.index t (0 : Fin 2) * 2000 + 1 * p.val = win5_3.index t (0 : Fin 2) * 2000 + 1 * p.val; omega
      | ⟨1, _⟩ => show win5_0.index t (1 : Fin 2) * 512 + 1 * k.val = k.val; omega
    have h1 : ((cfg5.win 1).blk t).view.emb (ix2 k q)
        = ix2 (n0 := 512) (n1 := 128) k ((((cfg5.win 3).blk t).view.emb (ix2 p q)) 1) := by
      funext a; apply Fin.ext
      match a with
      | ⟨0, _⟩ => show win5_1.index t (0 : Fin 2) * 512 + 1 * k.val = k.val; omega
      | ⟨1, _⟩ => show win5_1.index t (1 : Fin 2) * 128 + 1 * q.val = win5_3.index t (1 : Fin 2) * 128 + 1 * q.val; omega
    have hL : (iblk5 V c 0 t (ix2 p k) : EReal)
        = (V c main_v114 : S50000x512.Idx → EReal) (ix2 (n0 := 50000) (n1 := 512) ((((cfg5.win 3).blk t).view.emb (ix2 p q)) 0) k) := by
      show (V c main_v114 : S50000x512.Idx → EReal) (((cfg5.win 0).blk t).view.emb (ix2 p k)) = _
      rw [h0]
    have hR : (iblk5 V c 1 t (ix2 k q) : EReal)
        = (V c main_arg6 : S512x128.Idx → EReal) (ix2 (n0 := 512) (n1 := 128) k ((((cfg5.win 3).blk t).view.emb (ix2 p q)) 1)) := by
      show (V c main_arg6 : S512x128.Idx → EReal) (((cfg5.win 1).blk t).view.emb (ix2 k q)) = _
      rw [h1]
    exact congrArg₂ (fun a b : EReal => a * b) hL hR
  · have h2 : ((cfg5.win 2).blk t).view.emb (ix1 q)
        = ix1 (n := 128) ((((cfg5.win 3).blk t).view.emb (ix2 p q)) 1) := by
      funext a; apply Fin.ext
      match a with
      | ⟨0, _⟩ => show win5_2.index t (0 : Fin 1) * 128 + 1 * q.val = win5_3.index t (1 : Fin 2) * 128 + 1 * q.val; omega
    show (V c main_arg7 : S128.Idx → EReal) (((cfg5.win 2).blk t).view.emb (ix1 q)) = _
    rw [h2]

/-- An index of the output array is in point t's block iff its row is in block row t. -/
theorem mem_block (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v115).slice (win5_3.rect t)).set ↔ _
  rw [View.set_slice_whole, Rect.mem_set_unit]
  exact Iff.rfl

/-- The 25 block rows tile the 50000 rows: row r lies in block row r / 2000. -/
theorem covered (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  obtain ⟨e0, e1, e2, e3, e4, e5, e6⟩ := block_indices t
  have ht : t.val = (i 0).val / 2000 := rfl
  refine ⟨t, flush5_3 t, ?_⟩
  rw [mem_block]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- After the region its output array holds the layer applied to the three arrays it found on entry. -/
theorem layer (c : Dev nD) :
    (dat5 V c).arrAt 3 cfg5.N = outputLayer (V c main_v114) (V c main_arg6) (V c main_arg7) :=
  (dat5 V c).arrAt_eq_of_cover 3 (outputLayer (V c main_v114) (V c main_arg6) (V c main_arg7)) (fun t _ => flushed_eq V c t) covered

end Cert.KernelIdeal.Layer5

end
-- ==== Proof.RefStages.lean ====
/-
  The reference's dense stages are the layer functions. Each dot_general of the reference, read at an entry (r, c),
  is the sum over k of its left operand at (r, k) times its right operand at (k, c); the bias enters through two
  broadcasts that read it at column c; the clamp is a maximum with a zero splat. So the input stage is
  max (x·W1 + b1) 0 entry by entry, each of the four layer products is features·weights, and the result is h·W2 + b2.
-/
import proofs.«105029_j57286273794622_1_alg».proof.Proof.RefRead
import proofs.«105029_j57286273794622_1_alg».proof.Proof.RowsTimes

noncomputable section

namespace Cert.RefStages

open Idealize.ShloMosaic Idealize.ShloMosaic.ValueIdx
open Cert.ReferenceIdeal Cert.ReferenceIdeal.Read Cert.Dense

/-- The reference's input stage, entry by entry: max (x·W1 + b1) 0. -/
theorem input_stage (x0 : (⟨S50000x256, .f32⟩ : BufTy).Contents (Elt Ideal)) (x2 : (⟨S256x512, .f32⟩ : BufTy).Contents (Elt Ideal)) (x3 : (⟨S512, .f32⟩ : BufTy).Contents (Elt Ideal)) :
    val_main_v34 (F := Ideal) x0 x2 x3 = inputLayer x0 x2 x3 := by
  funext i
  rw [val_main_v34_apply, val_main_v33_apply, val_main_v30_apply, val_main_v32_apply, val_main_v31_apply,
    val_main_call1_v0_apply, val_main_call1_cst_apply]
  have el : ∀ k : Fin 256, lidx_main_v30 i k = ix2 (n0 := 50000) (n1 := 256) (i 0) k :=
    fun k => funext fun a => by match a with | ⟨0, _⟩ => rfl | ⟨1, _⟩ => rfl
  have er : ∀ k : Fin 256, ridx_main_v30 i k = ix2 (n0 := 256) (n1 := 512) k (i 1) :=
    fun k => funext fun a => by match a with | ⟨0, _⟩ => rfl | ⟨1, _⟩ => rfl
  have eb : idx_main_v31 (idx_main_v32 i) = ix1 (n := 512) (i 1) :=
    funext fun a => by match a with | ⟨0, _⟩ => rfl
  simp only [el, er, eb]
  rfl

/-- Layer product 1 of the reference at an entry is the layer function of its two operands' stages. -/
theorem layer_stage_1 (x0 : (⟨S50000x256, .f32⟩ : BufTy).Contents (Elt Ideal)) (x2 : (⟨S256x512, .f32⟩ : BufTy).Contents (Elt Ideal)) (x3 : (⟨S512, .f32⟩ : BufTy).Contents (Elt Ideal)) (x4 : (⟨S4x512x512, .f32⟩ : BufTy).Contents (Elt Ideal)) :
    val_main_v37 (F := Ideal) x0 x2 x3 x4 = rowsTimes512 (val_main_v34 (F := Ideal) x0 x2 x3) (val_main_v36 (F := Ideal) x4) := by
  funext i
  rw [val_main_v37_apply]
  unfold rowsTimes512
  refine Finset.sum_congr rfl fun k _ => ?_
  have el : lidx_main_v37 i k = ix2 (n0 := 50000) (n1 := 512) (i 0) k :=
    funext fun a => by match a with | ⟨0, _⟩ => rfl | ⟨1, _⟩ => rfl
  have er : ridx_main_v37 i k = ix2 (n0 := 512) (n1 := 512) k (i 1) :=
    funext fun a => by match a with | ⟨0, _⟩ => rfl | ⟨1, _⟩ => rfl
  rw [el, er]

/-- Layer product 2 of the reference at an entry is the layer function of its two operands' stages. -/
theorem layer_stage_2 (x0 : (⟨S50000x256, .f32⟩ : BufTy).Contents (Elt Ideal)) (x1 : (⟨S2x400000, .i32⟩ : BufTy).Contents (Elt Ideal)) (x2 : (⟨S256x512, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v58 (F := Ideal) x0 x1 x2 x3 x4 x5 = rowsTimes512 (val_main_v55 (F := Ideal) x0 x1 x2 x3 x4 x5) (val_main_v57 (F := Ideal) x4) := by
  funext i
  rw [val_main_v58_apply]
  unfold rowsTimes512
  refine Finset.sum_congr rfl fun k _ => ?_
  have el : lidx_main_v58 i k = ix2 (n0 := 50000) (n1 := 512) (i 0) k :=
    funext fun a => by match a with | ⟨0, _⟩ => rfl | ⟨1, _⟩ => rfl
  have er : ridx_main_v58 i k = ix2 (n0 := 512) (n1 := 512) k (i 1) :=
    funext fun a => by match a with | ⟨0, _⟩ => rfl | ⟨1, _⟩ => rfl
  rw [el, er]

/-- Layer product 3 of the reference at an entry is the layer function of its two operands' stages. -/
theorem layer_stage_3 (x0 : (⟨S50000x256, .f32⟩ : BufTy).Contents (Elt Ideal)) (x1 : (⟨S2x400000, .i32⟩ : BufTy).Contents (Elt Ideal)) (x2 : (⟨S256x512, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v79 (F := Ideal) x0 x1 x2 x3 x4 x5 = rowsTimes512 (val_main_v76 (F := Ideal) x0 x1 x2 x3 x4 x5) (val_main_v78 (F := Ideal) x4) := by
  funext i
  rw [val_main_v79_apply]
  unfold rowsTimes512
  refine Finset.sum_congr rfl fun k _ => ?_
  have el : lidx_main_v79 i k = ix2 (n0 := 50000) (n1 := 512) (i 0) k :=
    funext fun a => by match a with | ⟨0, _⟩ => rfl | ⟨1, _⟩ => rfl
  have er : ridx_main_v79 i k = ix2 (n0 := 512) (n1 := 512) k (i 1) :=
    funext fun a => by match a with | ⟨0, _⟩ => rfl | ⟨1, _⟩ => rfl
  rw [el, er]

/-- Layer product 4 of the reference at an entry is the layer function of its two operands' stages. -/
theorem layer_stage_4 (x0 : (⟨S50000x256, .f32⟩ : BufTy).Contents (Elt Ideal)) (x1 : (⟨S2x400000, .i32⟩ : BufTy).Contents (Elt Ideal)) (x2 : (⟨S256x512, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) :
    val_main_v100 (F := Ideal) x0 x1 x2 x3 x4 x5 = rowsTimes512 (val_main_v97 (F := Ideal) x0 x1 x2 x3 x4 x5) (val_main_v99 (F := Ideal) x4) := by
  funext i
  rw [val_main_v100_apply]
  unfold rowsTimes512
  refine Finset.sum_congr rfl fun k _ => ?_
  have el : lidx_main_v100 i k = ix2 (n0 := 50000) (n1 := 512) (i 0) k :=
    funext fun a => by match a with | ⟨0, _⟩ => rfl | ⟨1, _⟩ => rfl
  have er : ridx_main_v100 i k = ix2 (n0 := 512) (n1 := 512) k (i 1) :=
    funext fun a => by match a with | ⟨0, _⟩ => rfl | ⟨1, _⟩ => rfl
  rw [el, er]

/-- The reference's result, entry by entry: h·W2 + b2 over the last layer's output. -/
theorem output_stage (x0 : (⟨S50000x256, .f32⟩ : BufTy).Contents (Elt Ideal)) (x1 : (⟨S2x400000, .i32⟩ : BufTy).Contents (Elt Ideal)) (x2 : (⟨S256x512, .f32⟩ : BufTy).Contents (Elt Ideal)) (x3 : (⟨S512, .f32⟩ : BufTy).Contents (Elt Ideal)) (x4 : (⟨S4x512x512, .f32⟩ : BufTy).Contents (Elt Ideal)) (x5 : (⟨S4x512, .f32⟩ : BufTy).Contents (Elt Ideal)) (x6 : (⟨S512x128, .f32⟩ : BufTy).Contents (Elt Ideal)) (x7 : (⟨S128, .f32⟩ : BufTy).Contents (Elt Ideal)) :
    val_main_v122 (F := Ideal) x0 x1 x2 x3 x4 x5 x6 x7 = outputLayer (val_main_v118 (F := Ideal) x0 x1 x2 x3 x4 x5) x6 x7 := by
  funext i
  rw [val_main_v122_apply, val_main_v119_apply, val_main_v121_apply, val_main_v120_apply]
  have el : ∀ k : Fin 512, lidx_main_v119 i k = ix2 (n0 := 50000) (n1 := 512) (i 0) k :=
    fun k => funext fun a => by match a with | ⟨0, _⟩ => rfl | ⟨1, _⟩ => rfl
  have er : ∀ k : Fin 512, ridx_main_v119 i k = ix2 (n0 := 512) (n1 := 128) k (i 1) :=
    fun k => funext fun a => by match a with | ⟨0, _⟩ => rfl | ⟨1, _⟩ => rfl
  have eb : idx_main_v120 (idx_main_v121 i) = ix1 (n := 128) (i 1) :=
    funext fun a => by match a with | ⟨0, _⟩ => rfl
  simp only [el, er, eb]
  rfl

end Cert.RefStages

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.Thread.lean ====
/-
  The idealized kernel's result is the reference's. The kernel program is a fold of fourteen segments over the buffer
  contents; this module follows one value through the fold. Before the first region the host computes, from the edge
  list alone, the message sources, the message targets and the normalisation — the reference's own first operations.
  Each region then leaves in its output array the dense layer of the arrays it found (the region modules), which is
  the reference's dot_general stage of the same operands (the stage module); each host stretch between two regions
  is, operation for operation, the reference's gather–scale–scatter–bias step on the same operands, and slices the
  next weights out of the stack. So at every boundary the buffer carrying the node features holds the reference's
  corresponding stage of the launch arguments, and the last region's output holds the reference's result.
-/
import proofs.«105029_j57286273794622_1_alg».proof.Proof.Layer0
import proofs.«105029_j57286273794622_1_alg».proof.Proof.Layer1
import proofs.«105029_j57286273794622_1_alg».proof.Proof.Layer2
import proofs.«105029_j57286273794622_1_alg».proof.Proof.Layer3
import proofs.«105029_j57286273794622_1_alg».proof.Proof.Layer4
import proofs.«105029_j57286273794622_1_alg».proof.Proof.Layer5
import proofs.«105029_j57286273794622_1_alg».proof.Proof.RefStages
import proofs.«105029_j57286273794622_1_alg».proof.Proof.LibTypedRef
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.ReferenceIdeal.Read Cert.Dense

variable (m : (ℓ : Loc nD τ sig) → Buf (Elt Ideal) ℓ) (ρ : Dev nD → PrngReg) (c : Dev nD)

/-! ## The normalisation, stretch by stretch

Before the first region the host computes the message sources and targets (the edge list's two rows, each with the
self loops appended), the degree of every node (ones added up at the targets), its inverse square root where the
degree is positive, and for every message the product of that at its source and at its target. These are three
stretches of host operations — up to the degree tests, the selection, and the two gathers — and each is read from
an arbitrary starting valuation, so that a value computed in one stretch is a named buffer in the next. -/

section Stretches

variable (X : Valuation τ sig (Elt Ideal))

theorem first_v3 : StableHlo.after hostOps0 X (Proc.devRef .tc main_v3) = val_main_v3 (F := Ideal) (X (Proc.devRef .tc main_arg1)) := by
  after_results_simp <;> rfl
theorem first_v6 : StableHlo.after hostOps0 X (Proc.devRef .tc main_v6) = val_main_v6 (F := Ideal) (X (Proc.devRef .tc main_arg1)) := by
  after_results_simp <;> rfl
theorem first_v12 : StableHlo.after hostOps0 X (Proc.devRef .tc main_v12) = val_main_v12 (F := Ideal) (X (Proc.devRef .tc main_arg1)) := by
  after_results_simp <;> rfl
theorem first_v13 : StableHlo.after hostOps0 X (Proc.devRef .tc main_v13) = val_main_v13 (F := Ideal) (X (Proc.devRef .tc main_arg1)) := by
  after_results_simp <;> rfl
theorem first_cst_2 : StableHlo.after hostOps0 X (Proc.devRef .tc main_cst_2) = val_main_cst_2 (F := Ideal) := by
  after_results_simp <;> rfl

theorem call_v3 : StableHlo.after hostOps0_1 X (Proc.devRef .tc main_v3) = X (Proc.devRef .tc main_v3) := by
  after_results_simp <;> rfl
theorem call_v6 : StableHlo.after hostOps0_1 X (Proc.devRef .tc main_v6) = X (Proc.devRef .tc main_v6) := by
  after_results_simp <;> rfl
/-- The selection, over arbitrary operands: where the test holds the second operand, elsewhere the scalar repeated. -/
theorem call_select (a : (⟨S50000, .i1⟩ : BufTy).Contents (Elt Ideal)) (b : (⟨S50000, .f32⟩ : BufTy).Contents (Elt Ideal)) (z : (⟨S_, .f32⟩ : BufTy).Contents (Elt Ideal))
    (h12 : X (Proc.devRef .tc main_v12) = a) (h13 : X (Proc.devRef .tc main_v13) = b) (hc : X (Proc.devRef .tc main_cst_2) = z) :
    StableHlo.after hostOps0_1 X (Proc.devRef .tc main_v14) = select a b (broadcastInDim S50000 ![] bcast_S_S50000 (id z)) := by
  after_results_simp
  simp only [TRef.ofBuf_toBuf, TRef.toBuf_ofBuf]
  rw [h12, h13, hc]
  rfl

/-- The selection: the inverse square root of the degree where the degree is positive, zero elsewhere. -/
theorem call_v14 (x1 : (⟨S2x400000, .i32⟩ : BufTy).Contents (Elt Ideal))
    (h12 : X (Proc.devRef .tc main_v12) = val_main_v12 (F := Ideal) x1) (h13 : X (Proc.devRef .tc main_v13) = val_main_v13 (F := Ideal) x1)
    (hc : X (Proc.devRef .tc main_cst_2) = val_main_cst_2 (F := Ideal)) :
    StableHlo.after hostOps0_1 X (Proc.devRef .tc main_v14) = val_main_v14 (F := Ideal) x1 :=
  call_select X _ _ _ h12 h13 hc

theorem last_v3 : StableHlo.after hostOps0_2 X (Proc.devRef .tc main_v3) = X (Proc.devRef .tc main_v3) := by
  after_results_simp <;> rfl
theorem last_v6 : StableHlo.after hostOps0_2 X (Proc.devRef .tc main_v6) = X (Proc.devRef .tc main_v6) := by
  after_results_simp <;> rfl
/-- The normalisation of every message: the selected value gathered at its source times that gathered at its target. -/
theorem last_v29 (x1 : (⟨S2x400000, .i32⟩ : BufTy).Contents (Elt Ideal))
    (h14 : X (Proc.devRef .tc main_v14) = val_main_v14 (F := Ideal) x1) (h3 : X (Proc.devRef .tc main_v3) = val_main_v3 (F := Ideal) x1)
    (h6 : X (Proc.devRef .tc main_v6) = val_main_v6 (F := Ideal) x1) :
    StableHlo.after hostOps0_2 X (Proc.devRef .tc main_v29) = val_main_v29 (F := Ideal) x1 := by
  after_results_simp
  rw [h14, h3, h6]
  rfl

end Stretches

/-! ## Region 0's entry: the graph's normalisation and the arguments

The first forty host operations compute, from the edge list alone, the message sources and targets with self loops
appended and the symmetric normalisation; they are the reference's first forty operations. -/

theorem v3_at3 : W3 m ρ c (Proc.devRef .tc main_v3) = (val_main_v3 (F := Ideal) (m ((c.tc : Thread nD τ).loc main_arg1))) := by
  show StableHlo.after hostOps0_2 (StableHlo.after hostOps0_1 (StableHlo.after hostOps0 (W0 m ρ c))) (Proc.devRef .tc main_v3) = _
  after_results_simp <;> rfl
theorem v6_at3 : W3 m ρ c (Proc.devRef .tc main_v6) = (val_main_v6 (F := Ideal) (m ((c.tc : Thread nD τ).loc main_arg1))) := by
  show StableHlo.after hostOps0_2 (StableHlo.after hostOps0_1 (StableHlo.after hostOps0 (W0 m ρ c))) (Proc.devRef .tc main_v6) = _
  after_results_simp <;> rfl
theorem v29_at3 : W3 m ρ c (Proc.devRef .tc main_v29) = (val_main_v29 (F := Ideal) (m ((c.tc : Thread nD τ).loc main_arg1))) := by
  have h14 : W2 m ρ c (Proc.devRef .tc main_v14) = val_main_v14 (F := Ideal) (m ((c.tc : Thread nD τ).loc main_arg1)) :=
    call_v14 (W1 m ρ c) (m ((c.tc : Thread nD τ).loc main_arg1)) (first_v12 (W0 m ρ c)) (first_v13 (W0 m ρ c)) (first_cst_2 (W0 m ρ c))
  have h3 : W2 m ρ c (Proc.devRef .tc main_v3) = val_main_v3 (F := Ideal) (m ((c.tc : Thread nD τ).loc main_arg1)) := (call_v3 (W1 m ρ c)).trans (first_v3 (W0 m ρ c))
  have h6 : W2 m ρ c (Proc.devRef .tc main_v6) = val_main_v6 (F := Ideal) (m ((c.tc : Thread nD τ).loc main_arg1)) := (call_v6 (W1 m ρ c)).trans (first_v6 (W0 m ρ c))
  exact last_v29 (W2 m ρ c) (m ((c.tc : Thread nD τ).loc main_arg1)) h14 h3 h6
theorem arg4_at3 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp <;> rfl
theorem arg5_at3 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp <;> rfl
theorem arg6_at3 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results_simp <;> rfl
theorem arg7_at3 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results_simp <;> rfl
theorem arg0_at3 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl
theorem arg2_at3 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl
theorem arg3_at3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp <;> rfl

/-! ## The kept buffers across the later segments

No region has one of these among its arrays before the last, and no later host operation writes one. -/

theorem v3_at4 : W4 m ρ c (Proc.devRef .tc main_v3) = (val_main_v3 (F := Ideal) (m ((c.tc : Thread nD τ).loc main_arg1))) :=
  (W4_of_ne m ρ c main_v3 (by decide)).trans (v3_at3 m ρ c)
theorem v6_at4 : W4 m ρ c (Proc.devRef .tc main_v6) = (val_main_v6 (F := Ideal) (m ((c.tc : Thread nD τ).loc main_arg1))) :=
  (W4_of_ne m ρ c main_v6 (by decide)).trans (v6_at3 m ρ c)
theorem v29_at4 : W4 m ρ c (Proc.devRef .tc main_v29) = (val_main_v29 (F := Ideal) (m ((c.tc : Thread nD τ).loc main_arg1))) :=
  (W4_of_ne m ρ c main_v29 (by decide)).trans (v29_at3 m ρ c)
theorem arg4_at4 : W4 m ρ c (Proc.devRef .tc main_arg4) = (m ((c.tc : Thread nD τ).loc main_arg4)) :=
  (W4_of_ne m ρ c main_arg4 (by decide)).trans (arg4_at3 m ρ c)
theorem arg5_at4 : W4 m ρ c (Proc.devRef .tc main_arg5) = (m ((c.tc : Thread nD τ).loc main_arg5)) :=
  (W4_of_ne m ρ c main_arg5 (by decide)).trans (arg5_at3 m ρ c)
theorem arg6_at4 : W4 m ρ c (Proc.devRef .tc main_arg6) = (m ((c.tc : Thread nD τ).loc main_arg6)) :=
  (W4_of_ne m ρ c main_arg6 (by decide)).trans (arg6_at3 m ρ c)
theorem arg7_at4 : W4 m ρ c (Proc.devRef .tc main_arg7) = (m ((c.tc : Thread nD τ).loc main_arg7)) :=
  (W4_of_ne m ρ c main_arg7 (by decide)).trans (arg7_at3 m ρ c)
theorem v3_at5 : W5 m ρ c (Proc.devRef .tc main_v3) = (val_main_v3 (F := Ideal) (m ((c.tc : Thread nD τ).loc main_arg1))) :=
  (by show StableHlo.after hostOps1 (W4 m ρ c) (Proc.devRef .tc main_v3) = _; after_results_simp <;> rfl : W5 m ρ c (Proc.devRef .tc main_v3) = W4 m ρ c (Proc.devRef .tc main_v3)).trans (v3_at4 m ρ c)
theorem v6_at5 : W5 m ρ c (Proc.devRef .tc main_v6) = (val_main_v6 (F := Ideal) (m ((c.tc : Thread nD τ).loc main_arg1))) :=
  (by show StableHlo.after hostOps1 (W4 m ρ c) (Proc.devRef .tc main_v6) = _; after_results_simp <;> rfl : W5 m ρ c (Proc.devRef .tc main_v6) = W4 m ρ c (Proc.devRef .tc main_v6)).trans (v6_at4 m ρ c)
theorem v29_at5 : W5 m ρ c (Proc.devRef .tc main_v29) = (val_main_v29 (F := Ideal) (m ((c.tc : Thread nD τ).loc main_arg1))) :=
  (by show StableHlo.after hostOps1 (W4 m ρ c) (Proc.devRef .tc main_v29) = _; after_results_simp <;> rfl : W5 m ρ c (Proc.devRef .tc main_v29) = W4 m ρ c (Proc.devRef .tc main_v29)).trans (v29_at4 m ρ c)
theorem arg4_at5 : W5 m ρ c (Proc.devRef .tc main_arg4) = (m ((c.tc : Thread nD τ).loc main_arg4)) :=
  (by show StableHlo.after hostOps1 (W4 m ρ c) (Proc.devRef .tc main_arg4) = _; after_results_simp <;> rfl : W5 m ρ c (Proc.devRef .tc main_arg4) = W4 m ρ c (Proc.devRef .tc main_arg4)).trans (arg4_at4 m ρ c)
theorem arg5_at5 : W5 m ρ c (Proc.devRef .tc main_arg5) = (m ((c.tc : Thread nD τ).loc main_arg5)) :=
  (by show StableHlo.after hostOps1 (W4 m ρ c) (Proc.devRef .tc main_arg5) = _; after_results_simp <;> rfl : W5 m ρ c (Proc.devRef .tc main_arg5) = W4 m ρ c (Proc.devRef .tc main_arg5)).trans (arg5_at4 m ρ c)
theorem arg6_at5 : W5 m ρ c (Proc.devRef .tc main_arg6) = (m ((c.tc : Thread nD τ).loc main_arg6)) :=
  (by show StableHlo.after hostOps1 (W4 m ρ c) (Proc.devRef .tc main_arg6) = _; after_results_simp <;> rfl : W5 m ρ c (Proc.devRef .tc main_arg6) = W4 m ρ c (Proc.devRef .tc main_arg6)).trans (arg6_at4 m ρ c)
theorem arg7_at5 : W5 m ρ c (Proc.devRef .tc main_arg7) = (m ((c.tc : Thread nD τ).loc main_arg7)) :=
  (by show StableHlo.after hostOps1 (W4 m ρ c) (Proc.devRef .tc main_arg7) = _; after_results_simp <;> rfl : W5 m ρ c (Proc.devRef .tc main_arg7) = W4 m ρ c (Proc.devRef .tc main_arg7)).trans (arg7_at4 m ρ c)
theorem v3_at6 : W6 m ρ c (Proc.devRef .tc main_v3) = (val_main_v3 (F := Ideal) (m ((c.tc : Thread nD τ).loc main_arg1))) :=
  (W6_of_ne m ρ c main_v3 (by decide)).trans (v3_at5 m ρ c)
theorem v6_at6 : W6 m ρ c (Proc.devRef .tc main_v6) = (val_main_v6 (F := Ideal) (m ((c.tc : Thread nD τ).loc main_arg1))) :=
  (W6_of_ne m ρ c main_v6 (by decide)).trans (v6_at5 m ρ c)
theorem v29_at6 : W6 m ρ c (Proc.devRef .tc main_v29) = (val_main_v29 (F := Ideal) (m ((c.tc : Thread nD τ).loc main_arg1))) :=
  (W6_of_ne m ρ c main_v29 (by decide)).trans (v29_at5 m ρ c)
theorem arg4_at6 : W6 m ρ c (Proc.devRef .tc main_arg4) = (m ((c.tc : Thread nD τ).loc main_arg4)) :=
  (W6_of_ne m ρ c main_arg4 (by decide)).trans (arg4_at5 m ρ c)
theorem arg5_at6 : W6 m ρ c (Proc.devRef .tc main_arg5) = (m ((c.tc : Thread nD τ).loc main_arg5)) :=
  (W6_of_ne m ρ c main_arg5 (by decide)).trans (arg5_at5 m ρ c)
theorem arg6_at6 : W6 m ρ c (Proc.devRef .tc main_arg6) = (m ((c.tc : Thread nD τ).loc main_arg6)) :=
  (W6_of_ne m ρ c main_arg6 (by decide)).trans (arg6_at5 m ρ c)
theorem arg7_at6 : W6 m ρ c (Proc.devRef .tc main_arg7) = (m ((c.tc : Thread nD τ).loc main_arg7)) :=
  (W6_of_ne m ρ c main_arg7 (by decide)).trans (arg7_at5 m ρ c)
theorem v3_at7 : W7 m ρ c (Proc.devRef .tc main_v3) = (val_main_v3 (F := Ideal) (m ((c.tc : Thread nD τ).loc main_arg1))) :=
  (by show StableHlo.after hostOps2 (W6 m ρ c) (Proc.devRef .tc main_v3) = _; after_results_simp <;> rfl : W7 m ρ c (Proc.devRef .tc main_v3) = W6 m ρ c (Proc.devRef .tc main_v3)).trans (v3_at6 m ρ c)
theorem v6_at7 : W7 m ρ c (Proc.devRef .tc main_v6) = (val_main_v6 (F := Ideal) (m ((c.tc : Thread nD τ).loc main_arg1))) :=
  (by show StableHlo.after hostOps2 (W6 m ρ c) (Proc.devRef .tc main_v6) = _; after_results_simp <;> rfl : W7 m ρ c (Proc.devRef .tc main_v6) = W6 m ρ c (Proc.devRef .tc main_v6)).trans (v6_at6 m ρ c)
theorem v29_at7 : W7 m ρ c (Proc.devRef .tc main_v29) = (val_main_v29 (F := Ideal) (m ((c.tc : Thread nD τ).loc main_arg1))) :=
  (by show StableHlo.after hostOps2 (W6 m ρ c) (Proc.devRef .tc main_v29) = _; after_results_simp <;> rfl : W7 m ρ c (Proc.devRef .tc main_v29) = W6 m ρ c (Proc.devRef .tc main_v29)).trans (v29_at6 m ρ c)
theorem arg4_at7 : W7 m ρ c (Proc.devRef .tc main_arg4) = (m ((c.tc : Thread nD τ).loc main_arg4)) :=
  (by show StableHlo.after hostOps2 (W6 m ρ c) (Proc.devRef .tc main_arg4) = _; after_results_simp <;> rfl : W7 m ρ c (Proc.devRef .tc main_arg4) = W6 m ρ c (Proc.devRef .tc main_arg4)).trans (arg4_at6 m ρ c)
theorem arg5_at7 : W7 m ρ c (Proc.devRef .tc main_arg5) = (m ((c.tc : Thread nD τ).loc main_arg5)) :=
  (by show StableHlo.after hostOps2 (W6 m ρ c) (Proc.devRef .tc main_arg5) = _; after_results_simp <;> rfl : W7 m ρ c (Proc.devRef .tc main_arg5) = W6 m ρ c (Proc.devRef .tc main_arg5)).trans (arg5_at6 m ρ c)
theorem arg6_at7 : W7 m ρ c (Proc.devRef .tc main_arg6) = (m ((c.tc : Thread nD τ).loc main_arg6)) :=
  (by show StableHlo.after hostOps2 (W6 m ρ c) (Proc.devRef .tc main_arg6) = _; after_results_simp <;> rfl : W7 m ρ c (Proc.devRef .tc main_arg6) = W6 m ρ c (Proc.devRef .tc main_arg6)).trans (arg6_at6 m ρ c)
theorem arg7_at7 : W7 m ρ c (Proc.devRef .tc main_arg7) = (m ((c.tc : Thread nD τ).loc main_arg7)) :=
  (by show StableHlo.after hostOps2 (W6 m ρ c) (Proc.devRef .tc main_arg7) = _; after_results_simp <;> rfl : W7 m ρ c (Proc.devRef .tc main_arg7) = W6 m ρ c (Proc.devRef .tc main_arg7)).trans (arg7_at6 m ρ c)
theorem v3_at8 : W8 m ρ c (Proc.devRef .tc main_v3) = (val_main_v3 (F := Ideal) (m ((c.tc : Thread nD τ).loc main_arg1))) :=
  (W8_of_ne m ρ c main_v3 (by decide)).trans (v3_at7 m ρ c)
theorem v6_at8 : W8 m ρ c (Proc.devRef .tc main_v6) = (val_main_v6 (F := Ideal) (m ((c.tc : Thread nD τ).loc main_arg1))) :=
  (W8_of_ne m ρ c main_v6 (by decide)).trans (v6_at7 m ρ c)
theorem v29_at8 : W8 m ρ c (Proc.devRef .tc main_v29) = (val_main_v29 (F := Ideal) (m ((c.tc : Thread nD τ).loc main_arg1))) :=
  (W8_of_ne m ρ c main_v29 (by decide)).trans (v29_at7 m ρ c)
theorem arg4_at8 : W8 m ρ c (Proc.devRef .tc main_arg4) = (m ((c.tc : Thread nD τ).loc main_arg4)) :=
  (W8_of_ne m ρ c main_arg4 (by decide)).trans (arg4_at7 m ρ c)
theorem arg5_at8 : W8 m ρ c (Proc.devRef .tc main_arg5) = (m ((c.tc : Thread nD τ).loc main_arg5)) :=
  (W8_of_ne m ρ c main_arg5 (by decide)).trans (arg5_at7 m ρ c)
theorem arg6_at8 : W8 m ρ c (Proc.devRef .tc main_arg6) = (m ((c.tc : Thread nD τ).loc main_arg6)) :=
  (W8_of_ne m ρ c main_arg6 (by decide)).trans (arg6_at7 m ρ c)
theorem arg7_at8 : W8 m ρ c (Proc.devRef .tc main_arg7) = (m ((c.tc : Thread nD τ).loc main_arg7)) :=
  (W8_of_ne m ρ c main_arg7 (by decide)).trans (arg7_at7 m ρ c)
theorem v3_at9 : W9 m ρ c (Proc.devRef .tc main_v3) = (val_main_v3 (F := Ideal) (m ((c.tc : Thread nD τ).loc main_arg1))) :=
  (by show StableHlo.after hostOps3 (W8 m ρ c) (Proc.devRef .tc main_v3) = _; after_results_simp <;> rfl : W9 m ρ c (Proc.devRef .tc main_v3) = W8 m ρ c (Proc.devRef .tc main_v3)).trans (v3_at8 m ρ c)
theorem v6_at9 : W9 m ρ c (Proc.devRef .tc main_v6) = (val_main_v6 (F := Ideal) (m ((c.tc : Thread nD τ).loc main_arg1))) :=
  (by show StableHlo.after hostOps3 (W8 m ρ c) (Proc.devRef .tc main_v6) = _; after_results_simp <;> rfl : W9 m ρ c (Proc.devRef .tc main_v6) = W8 m ρ c (Proc.devRef .tc main_v6)).trans (v6_at8 m ρ c)
theorem v29_at9 : W9 m ρ c (Proc.devRef .tc main_v29) = (val_main_v29 (F := Ideal) (m ((c.tc : Thread nD τ).loc main_arg1))) :=
  (by show StableHlo.after hostOps3 (W8 m ρ c) (Proc.devRef .tc main_v29) = _; after_results_simp <;> rfl : W9 m ρ c (Proc.devRef .tc main_v29) = W8 m ρ c (Proc.devRef .tc main_v29)).trans (v29_at8 m ρ c)
theorem arg4_at9 : W9 m ρ c (Proc.devRef .tc main_arg4) = (m ((c.tc : Thread nD τ).loc main_arg4)) :=
  (by show StableHlo.after hostOps3 (W8 m ρ c) (Proc.devRef .tc main_arg4) = _; after_results_simp <;> rfl : W9 m ρ c (Proc.devRef .tc main_arg4) = W8 m ρ c (Proc.devRef .tc main_arg4)).trans (arg4_at8 m ρ c)
theorem arg5_at9 : W9 m ρ c (Proc.devRef .tc main_arg5) = (m ((c.tc : Thread nD τ).loc main_arg5)) :=
  (by show StableHlo.after hostOps3 (W8 m ρ c) (Proc.devRef .tc main_arg5) = _; after_results_simp <;> rfl : W9 m ρ c (Proc.devRef .tc main_arg5) = W8 m ρ c (Proc.devRef .tc main_arg5)).trans (arg5_at8 m ρ c)
theorem arg6_at9 : W9 m ρ c (Proc.devRef .tc main_arg6) = (m ((c.tc : Thread nD τ).loc main_arg6)) :=
  (by show StableHlo.after hostOps3 (W8 m ρ c) (Proc.devRef .tc main_arg6) = _; after_results_simp <;> rfl : W9 m ρ c (Proc.devRef .tc main_arg6) = W8 m ρ c (Proc.devRef .tc main_arg6)).trans (arg6_at8 m ρ c)
theorem arg7_at9 : W9 m ρ c (Proc.devRef .tc main_arg7) = (m ((c.tc : Thread nD τ).loc main_arg7)) :=
  (by show StableHlo.after hostOps3 (W8 m ρ c) (Proc.devRef .tc main_arg7) = _; after_results_simp <;> rfl : W9 m ρ c (Proc.devRef .tc main_arg7) = W8 m ρ c (Proc.devRef .tc main_arg7)).trans (arg7_at8 m ρ c)
theorem v3_at10 : W10 m ρ c (Proc.devRef .tc main_v3) = (val_main_v3 (F := Ideal) (m ((c.tc : Thread nD τ).loc main_arg1))) :=
  (W10_of_ne m ρ c main_v3 (by decide)).trans (v3_at9 m ρ c)
theorem v6_at10 : W10 m ρ c (Proc.devRef .tc main_v6) = (val_main_v6 (F := Ideal) (m ((c.tc : Thread nD τ).loc main_arg1))) :=
  (W10_of_ne m ρ c main_v6 (by decide)).trans (v6_at9 m ρ c)
theorem v29_at10 : W10 m ρ c (Proc.devRef .tc main_v29) = (val_main_v29 (F := Ideal) (m ((c.tc : Thread nD τ).loc main_arg1))) :=
  (W10_of_ne m ρ c main_v29 (by decide)).trans (v29_at9 m ρ c)
theorem arg4_at10 : W10 m ρ c (Proc.devRef .tc main_arg4) = (m ((c.tc : Thread nD τ).loc main_arg4)) :=
  (W10_of_ne m ρ c main_arg4 (by decide)).trans (arg4_at9 m ρ c)
theorem arg5_at10 : W10 m ρ c (Proc.devRef .tc main_arg5) = (m ((c.tc : Thread nD τ).loc main_arg5)) :=
  (W10_of_ne m ρ c main_arg5 (by decide)).trans (arg5_at9 m ρ c)
theorem arg6_at10 : W10 m ρ c (Proc.devRef .tc main_arg6) = (m ((c.tc : Thread nD τ).loc main_arg6)) :=
  (W10_of_ne m ρ c main_arg6 (by decide)).trans (arg6_at9 m ρ c)
theorem arg7_at10 : W10 m ρ c (Proc.devRef .tc main_arg7) = (m ((c.tc : Thread nD τ).loc main_arg7)) :=
  (W10_of_ne m ρ c main_arg7 (by decide)).trans (arg7_at9 m ρ c)
theorem v3_at11 : W11 m ρ c (Proc.devRef .tc main_v3) = (val_main_v3 (F := Ideal) (m ((c.tc : Thread nD τ).loc main_arg1))) :=
  (by show StableHlo.after hostOps4 (W10 m ρ c) (Proc.devRef .tc main_v3) = _; after_results_simp <;> rfl : W11 m ρ c (Proc.devRef .tc main_v3) = W10 m ρ c (Proc.devRef .tc main_v3)).trans (v3_at10 m ρ c)
theorem v6_at11 : W11 m ρ c (Proc.devRef .tc main_v6) = (val_main_v6 (F := Ideal) (m ((c.tc : Thread nD τ).loc main_arg1))) :=
  (by show StableHlo.after hostOps4 (W10 m ρ c) (Proc.devRef .tc main_v6) = _; after_results_simp <;> rfl : W11 m ρ c (Proc.devRef .tc main_v6) = W10 m ρ c (Proc.devRef .tc main_v6)).trans (v6_at10 m ρ c)
theorem v29_at11 : W11 m ρ c (Proc.devRef .tc main_v29) = (val_main_v29 (F := Ideal) (m ((c.tc : Thread nD τ).loc main_arg1))) :=
  (by show StableHlo.after hostOps4 (W10 m ρ c) (Proc.devRef .tc main_v29) = _; after_results_simp <;> rfl : W11 m ρ c (Proc.devRef .tc main_v29) = W10 m ρ c (Proc.devRef .tc main_v29)).trans (v29_at10 m ρ c)
theorem arg4_at11 : W11 m ρ c (Proc.devRef .tc main_arg4) = (m ((c.tc : Thread nD τ).loc main_arg4)) :=
  (by show StableHlo.after hostOps4 (W10 m ρ c) (Proc.devRef .tc main_arg4) = _; after_results_simp <;> rfl : W11 m ρ c (Proc.devRef .tc main_arg4) = W10 m ρ c (Proc.devRef .tc main_arg4)).trans (arg4_at10 m ρ c)
theorem arg5_at11 : W11 m ρ c (Proc.devRef .tc main_arg5) = (m ((c.tc : Thread nD τ).loc main_arg5)) :=
  (by show StableHlo.after hostOps4 (W10 m ρ c) (Proc.devRef .tc main_arg5) = _; after_results_simp <;> rfl : W11 m ρ c (Proc.devRef .tc main_arg5) = W10 m ρ c (Proc.devRef .tc main_arg5)).trans (arg5_at10 m ρ c)
theorem arg6_at11 : W11 m ρ c (Proc.devRef .tc main_arg6) = (m ((c.tc : Thread nD τ).loc main_arg6)) :=
  (by show StableHlo.after hostOps4 (W10 m ρ c) (Proc.devRef .tc main_arg6) = _; after_results_simp <;> rfl : W11 m ρ c (Proc.devRef .tc main_arg6) = W10 m ρ c (Proc.devRef .tc main_arg6)).trans (arg6_at10 m ρ c)
theorem arg7_at11 : W11 m ρ c (Proc.devRef .tc main_arg7) = (m ((c.tc : Thread nD τ).loc main_arg7)) :=
  (by show StableHlo.after hostOps4 (W10 m ρ c) (Proc.devRef .tc main_arg7) = _; after_results_simp <;> rfl : W11 m ρ c (Proc.devRef .tc main_arg7) = W10 m ρ c (Proc.devRef .tc main_arg7)).trans (arg7_at10 m ρ c)
theorem v3_at12 : W12 m ρ c (Proc.devRef .tc main_v3) = (val_main_v3 (F := Ideal) (m ((c.tc : Thread nD τ).loc main_arg1))) :=
  (W12_of_ne m ρ c main_v3 (by decide)).trans (v3_at11 m ρ c)
theorem v6_at12 : W12 m ρ c (Proc.devRef .tc main_v6) = (val_main_v6 (F := Ideal) (m ((c.tc : Thread nD τ).loc main_arg1))) :=
  (W12_of_ne m ρ c main_v6 (by decide)).trans (v6_at11 m ρ c)
theorem v29_at12 : W12 m ρ c (Proc.devRef .tc main_v29) = (val_main_v29 (F := Ideal) (m ((c.tc : Thread nD τ).loc main_arg1))) :=
  (W12_of_ne m ρ c main_v29 (by decide)).trans (v29_at11 m ρ c)
theorem arg4_at12 : W12 m ρ c (Proc.devRef .tc main_arg4) = (m ((c.tc : Thread nD τ).loc main_arg4)) :=
  (W12_of_ne m ρ c main_arg4 (by decide)).trans (arg4_at11 m ρ c)
theorem arg5_at12 : W12 m ρ c (Proc.devRef .tc main_arg5) = (m ((c.tc : Thread nD τ).loc main_arg5)) :=
  (W12_of_ne m ρ c main_arg5 (by decide)).trans (arg5_at11 m ρ c)
theorem arg6_at12 : W12 m ρ c (Proc.devRef .tc main_arg6) = (m ((c.tc : Thread nD τ).loc main_arg6)) :=
  (W12_of_ne m ρ c main_arg6 (by decide)).trans (arg6_at11 m ρ c)
theorem arg7_at12 : W12 m ρ c (Proc.devRef .tc main_arg7) = (m ((c.tc : Thread nD τ).loc main_arg7)) :=
  (W12_of_ne m ρ c main_arg7 (by decide)).trans (arg7_at11 m ρ c)
theorem v3_at13 : W13 m ρ c (Proc.devRef .tc main_v3) = (val_main_v3 (F := Ideal) (m ((c.tc : Thread nD τ).loc main_arg1))) :=
  (by show StableHlo.after hostOps5 (W12 m ρ c) (Proc.devRef .tc main_v3) = _; after_results_simp <;> rfl : W13 m ρ c (Proc.devRef .tc main_v3) = W12 m ρ c (Proc.devRef .tc main_v3)).trans (v3_at12 m ρ c)
theorem v6_at13 : W13 m ρ c (Proc.devRef .tc main_v6) = (val_main_v6 (F := Ideal) (m ((c.tc : Thread nD τ).loc main_arg1))) :=
  (by show StableHlo.after hostOps5 (W12 m ρ c) (Proc.devRef .tc main_v6) = _; after_results_simp <;> rfl : W13 m ρ c (Proc.devRef .tc main_v6) = W12 m ρ c (Proc.devRef .tc main_v6)).trans (v6_at12 m ρ c)
theorem v29_at13 : W13 m ρ c (Proc.devRef .tc main_v29) = (val_main_v29 (F := Ideal) (m ((c.tc : Thread nD τ).loc main_arg1))) :=
  (by show StableHlo.after hostOps5 (W12 m ρ c) (Proc.devRef .tc main_v29) = _; after_results_simp <;> rfl : W13 m ρ c (Proc.devRef .tc main_v29) = W12 m ρ c (Proc.devRef .tc main_v29)).trans (v29_at12 m ρ c)
theorem arg4_at13 : W13 m ρ c (Proc.devRef .tc main_arg4) = (m ((c.tc : Thread nD τ).loc main_arg4)) :=
  (by show StableHlo.after hostOps5 (W12 m ρ c) (Proc.devRef .tc main_arg4) = _; after_results_simp <;> rfl : W13 m ρ c (Proc.devRef .tc main_arg4) = W12 m ρ c (Proc.devRef .tc main_arg4)).trans (arg4_at12 m ρ c)
theorem arg5_at13 : W13 m ρ c (Proc.devRef .tc main_arg5) = (m ((c.tc : Thread nD τ).loc main_arg5)) :=
  (by show StableHlo.after hostOps5 (W12 m ρ c) (Proc.devRef .tc main_arg5) = _; after_results_simp <;> rfl : W13 m ρ c (Proc.devRef .tc main_arg5) = W12 m ρ c (Proc.devRef .tc main_arg5)).trans (arg5_at12 m ρ c)
theorem arg6_at13 : W13 m ρ c (Proc.devRef .tc main_arg6) = (m ((c.tc : Thread nD τ).loc main_arg6)) :=
  (by show StableHlo.after hostOps5 (W12 m ρ c) (Proc.devRef .tc main_arg6) = _; after_results_simp <;> rfl : W13 m ρ c (Proc.devRef .tc main_arg6) = W12 m ρ c (Proc.devRef .tc main_arg6)).trans (arg6_at12 m ρ c)
theorem arg7_at13 : W13 m ρ c (Proc.devRef .tc main_arg7) = (m ((c.tc : Thread nD τ).loc main_arg7)) :=
  (by show StableHlo.after hostOps5 (W12 m ρ c) (Proc.devRef .tc main_arg7) = _; after_results_simp <;> rfl : W13 m ρ c (Proc.devRef .tc main_arg7) = W12 m ρ c (Proc.devRef .tc main_arg7)).trans (arg7_at12 m ρ c)

/-! ## The values, segment by segment -/

/-- Region 0 leaves the input layer of the three arguments it reads. -/
theorem v30_at4 : W4 m ρ c (Proc.devRef .tc main_v30) = (val_main_v34 (F := Ideal) (m ((c.tc : Thread nD τ).loc main_arg0)) (m ((c.tc : Thread nD τ).loc main_arg2)) (m ((c.tc : Thread nD τ).loc main_arg3))) :=
  calc W4 m ρ c (Proc.devRef .tc main_v30)
      = (dat0 (V3 m ρ) c).arrAt 3 cfg0.N := W4_arr m ρ c 3
    _ = inputLayer (W3 m ρ c (Proc.devRef .tc main_arg0)) (W3 m ρ c (Proc.devRef .tc main_arg2)) (W3 m ρ c (Proc.devRef .tc main_arg3)) := Cert.KernelIdeal.Layer0.layer (V3 m ρ) c
    _ = inputLayer (m ((c.tc : Thread nD τ).loc main_arg0)) (m ((c.tc : Thread nD τ).loc main_arg2)) (m ((c.tc : Thread nD τ).loc main_arg3)) := by rw [arg0_at3 m ρ c, arg2_at3 m ρ c, arg3_at3 m ρ c]
    _ = (val_main_v34 (F := Ideal) (m ((c.tc : Thread nD τ).loc main_arg0)) (m ((c.tc : Thread nD τ).loc main_arg2)) (m ((c.tc : Thread nD τ).loc main_arg3))) := (Cert.RefStages.input_stage (m ((c.tc : Thread nD τ).loc main_arg0)) (m ((c.tc : Thread nD τ).loc main_arg2)) (m ((c.tc : Thread nD τ).loc main_arg3))).symm

/-- The first stretch keeps the features and slices the first layer's weights out of the stacked weights. -/
theorem v30_at5 : W5 m ρ c (Proc.devRef .tc main_v30) = (val_main_v34 (F := Ideal) (m ((c.tc : Thread nD τ).loc main_arg0)) (m ((c.tc : Thread nD τ).loc main_arg2)) (m ((c.tc : Thread nD τ).loc main_arg3))) :=
  (by show StableHlo.after hostOps1 (W4 m ρ c) (Proc.devRef .tc main_v30) = _; after_results_simp <;> rfl : W5 m ρ c (Proc.devRef .tc main_v30) = W4 m ρ c (Proc.devRef .tc main_v30)).trans (v30_at4 m ρ c)
theorem v32_at5 : W5 m ρ c (Proc.devRef .tc main_v32) = (val_main_v36 (F := Ideal) (m ((c.tc : Thread nD τ).loc main_arg4))) := by
  show StableHlo.after hostOps1 (W4 m ρ c) (Proc.devRef .tc main_v32) = _
  after_results_simp
  rw [arg4_at4 m ρ c]
  rfl

/-- Region 1 leaves in its output the product of the features and weights it found on entry. -/
theorem v33_at6 : W6 m ρ c (Proc.devRef .tc main_v33) = (val_main_v37 (F := Ideal) (m ((c.tc : Thread nD τ).loc main_arg0)) (m ((c.tc : Thread nD τ).loc main_arg2)) (m ((c.tc : Thread nD τ).loc main_arg3)) (m ((c.tc : Thread nD τ).loc main_arg4))) :=
  calc W6 m ρ c (Proc.devRef .tc main_v33)
      = (dat1 (V5 m ρ) c).arrAt 2 cfg1.N := W6_arr m ρ c 2
    _ = rowsTimes512 (W5 m ρ c (Proc.devRef .tc main_v30)) (W5 m ρ c (Proc.devRef .tc main_v32)) := Cert.KernelIdeal.Layer1.product (V5 m ρ) c
    _ = rowsTimes512 (val_main_v34 (F := Ideal) (m ((c.tc : Thread nD τ).loc main_arg0)) (m ((c.tc : Thread nD τ).loc main_arg2)) (m ((c.tc : Thread nD τ).loc main_arg3))) (val_main_v36 (F := Ideal) (m ((c.tc : Thread nD τ).loc main_arg4))) := by rw [v30_at5 m ρ c, v32_at5 m ρ c]
    _ = (val_main_v37 (F := Ideal) (m ((c.tc : Thread nD τ).loc main_arg0)) (m ((c.tc : Thread nD τ).loc main_arg2)) (m ((c.tc : Thread nD τ).loc main_arg3)) (m ((c.tc : Thread nD τ).loc main_arg4))) := (Cert.RefStages.layer_stage_1 (m ((c.tc : Thread nD τ).loc main_arg0)) (m ((c.tc : Thread nD τ).loc main_arg2)) (m ((c.tc : Thread nD τ).loc main_arg3)) (m ((c.tc : Thread nD τ).loc main_arg4))).symm

/-- The host stretch between two regions gathers the previous product's rows at the message sources, scales them by
    the normalisation, adds them up at the message targets and adds the layer's bias: the reference's operations on
    the same operands. -/
theorem v51_at7 : W7 m ρ c (Proc.devRef .tc main_v51) = (val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps2 (W6 m ρ c) (Proc.devRef .tc main_v51) = _
  after_results_simp
  rw [v3_at6 m ρ c, v6_at6 m ρ c, v29_at6 m ρ c, v33_at6 m ρ c, arg5_at6 m ρ c]
  rfl
/-- The same stretch slices the next layer's weights out of the stacked weights. -/
theorem v53_at7 : W7 m ρ c (Proc.devRef .tc main_v53) = (val_main_v57 (F := Ideal) (m ((c.tc : Thread nD τ).loc main_arg4))) := by
  show StableHlo.after hostOps2 (W6 m ρ c) (Proc.devRef .tc main_v53) = _
  after_results_simp
  rw [arg4_at6 m ρ c]
  rfl

/-- Region 2 leaves in its output the product of the features and weights it found on entry. -/
theorem v54_at8 : W8 m ρ c (Proc.devRef .tc main_v54) = (val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  calc W8 m ρ c (Proc.devRef .tc main_v54)
      = (dat2 (V7 m ρ) c).arrAt 2 cfg2.N := W8_arr m ρ c 2
    _ = rowsTimes512 (W7 m ρ c (Proc.devRef .tc main_v51)) (W7 m ρ c (Proc.devRef .tc main_v53)) := Cert.KernelIdeal.Layer2.product (V7 m ρ) c
    _ = rowsTimes512 (val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (val_main_v57 (F := Ideal) (m ((c.tc : Thread nD τ).loc main_arg4))) := by rw [v51_at7 m ρ c, v53_at7 m ρ c]
    _ = (val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := (Cert.RefStages.layer_stage_2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).symm

/-- The host stretch between two regions gathers the previous product's rows at the message sources, scales them by
    the normalisation, adds them up at the message targets and adds the layer's bias: the reference's operations on
    the same operands. -/
theorem v72_at9 : W9 m ρ c (Proc.devRef .tc main_v72) = (val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps3 (W8 m ρ c) (Proc.devRef .tc main_v72) = _
  after_results_simp
  rw [v3_at8 m ρ c, v6_at8 m ρ c, v29_at8 m ρ c, v54_at8 m ρ c, arg5_at8 m ρ c]
  rfl
/-- The same stretch slices the next layer's weights out of the stacked weights. -/
theorem v74_at9 : W9 m ρ c (Proc.devRef .tc main_v74) = (val_main_v78 (F := Ideal) (m ((c.tc : Thread nD τ).loc main_arg4))) := by
  show StableHlo.after hostOps3 (W8 m ρ c) (Proc.devRef .tc main_v74) = _
  after_results_simp
  rw [arg4_at8 m ρ c]
  rfl

/-- Region 3 leaves in its output the product of the features and weights it found on entry. -/
theorem v75_at10 : W10 m ρ c (Proc.devRef .tc main_v75) = (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  calc W10 m ρ c (Proc.devRef .tc main_v75)
      = (dat3 (V9 m ρ) c).arrAt 2 cfg3.N := W10_arr m ρ c 2
    _ = rowsTimes512 (W9 m ρ c (Proc.devRef .tc main_v72)) (W9 m ρ c (Proc.devRef .tc main_v74)) := Cert.KernelIdeal.Layer3.product (V9 m ρ) c
    _ = rowsTimes512 (val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (val_main_v78 (F := Ideal) (m ((c.tc : Thread nD τ).loc main_arg4))) := by rw [v72_at9 m ρ c, v74_at9 m ρ c]
    _ = (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := (Cert.RefStages.layer_stage_3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).symm

/-- The host stretch between two regions gathers the previous product's rows at the message sources, scales them by
    the normalisation, adds them up at the message targets and adds the layer's bias: the reference's operations on
    the same operands. -/
theorem v93_at11 : W11 m ρ c (Proc.devRef .tc main_v93) = (val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps4 (W10 m ρ c) (Proc.devRef .tc main_v93) = _
  after_results_simp
  rw [v3_at10 m ρ c, v6_at10 m ρ c, v29_at10 m ρ c, v75_at10 m ρ c, arg5_at10 m ρ c]
  rfl
/-- The same stretch slices the next layer's weights out of the stacked weights. -/
theorem v95_at11 : W11 m ρ c (Proc.devRef .tc main_v95) = (val_main_v99 (F := Ideal) (m ((c.tc : Thread nD τ).loc main_arg4))) := by
  show StableHlo.after hostOps4 (W10 m ρ c) (Proc.devRef .tc main_v95) = _
  after_results_simp
  rw [arg4_at10 m ρ c]
  rfl

/-- Region 4 leaves in its output the product of the features and weights it found on entry. -/
theorem v96_at12 : W12 m ρ c (Proc.devRef .tc main_v96) = (val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  calc W12 m ρ c (Proc.devRef .tc main_v96)
      = (dat4 (V11 m ρ) c).arrAt 2 cfg4.N := W12_arr m ρ c 2
    _ = rowsTimes512 (W11 m ρ c (Proc.devRef .tc main_v93)) (W11 m ρ c (Proc.devRef .tc main_v95)) := Cert.KernelIdeal.Layer4.product (V11 m ρ) c
    _ = rowsTimes512 (val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (val_main_v99 (F := Ideal) (m ((c.tc : Thread nD τ).loc main_arg4))) := by rw [v93_at11 m ρ c, v95_at11 m ρ c]
    _ = (val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := (Cert.RefStages.layer_stage_4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).symm

/-- The host stretch between two regions gathers the previous product's rows at the message sources, scales them by
    the normalisation, adds them up at the message targets and adds the layer's bias: the reference's operations on
    the same operands. -/
theorem v114_at13 : W13 m ρ c (Proc.devRef .tc main_v114) = (val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps5 (W12 m ρ c) (Proc.devRef .tc main_v114) = _
  after_results_simp
  rw [v3_at12 m ρ c, v6_at12 m ρ c, v29_at12 m ρ c, v96_at12 m ρ c, arg5_at12 m ρ c]
  rfl

/-- Region 5 leaves the output layer of the last features and the two arguments it reads: the program's result is the
    reference's. -/
theorem result : W14 m ρ c (Proc.devRef .tc main_v115) = (val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  calc W14 m ρ c (Proc.devRef .tc main_v115)
      = (dat5 (V13 m ρ) c).arrAt 3 cfg5.N := W14_arr m ρ c 3
    _ = outputLayer (W13 m ρ c (Proc.devRef .tc main_v114)) (W13 m ρ c (Proc.devRef .tc main_arg6)) (W13 m ρ c (Proc.devRef .tc main_arg7)) := Cert.KernelIdeal.Layer5.layer (V13 m ρ) c
    _ = outputLayer (val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) := by rw [v114_at13 m ρ c, arg6_at13 m ρ c, arg7_at13 m ρ c]
    _ = (val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := (Cert.RefStages.output_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm

end Cert.Bridge

end
-- ==== Proof.lean ====
/-
  A four-layer graph convolution network on 50000 nodes: an input layer max (x·W1 + b1) 0, four layers each of which
  multiplies the node features by a weight matrix, gathers the product's rows at the message sources, scales them by
  the symmetric degree normalisation, adds them up at the message targets and adds a bias, and an output layer
  h·W2 + b2. The kernel program runs each of the six matrix products as a pipelined region over blocks of 2000 rows
  and everything else on the host; the reference runs everything on the host.

  Over the extended reals the two agree entry by entry. A region's output array is the ordinary matrix product of the
  arrays it found (plus bias, clamped, where the layer has them), because a change of float format is the identity,
  the accumulator starts at zero and the row blocks tile the rows; that product is the reference's dot_general stage
  of the same operands. Between the regions both programs apply the same host operations to the same operands. So
  buffer by buffer the kernel's fold carries the reference's stages, and the results coincide. No law beyond
  re-indexing a finite sum is used, so the finiteness of the inputs is never opened.

  The ideal pass rewrote nothing in the kernel, so there is nothing to preserve beyond the text itself; the three
  frames are the generated ones (the reference's is its run with the result dropped).
-/
import proofs.«105029_j57286273794622_1_alg».proof.Defs
import proofs.«105029_j57286273794622_1_alg».proof.Proof.Gen.Kernel
import proofs.«105029_j57286273794622_1_alg».proof.Proof.Gen.Kernel.Frame
import proofs.«105029_j57286273794622_1_alg».proof.Proof.Gen.KernelIdeal
import proofs.«105029_j57286273794622_1_alg».proof.Proof.Gen.KernelIdeal.Frame
import proofs.«105029_j57286273794622_1_alg».proof.Proof.Gen.ReferenceIdeal
import proofs.«105029_j57286273794622_1_alg».proof.Proof.Gen.Pre_finite_inputs
import proofs.«105029_j57286273794622_1_alg».proof.Proof.RefRun
import proofs.«105029_j57286273794622_1_alg».proof.Proof.RefRead
import proofs.«105029_j57286273794622_1_alg».proof.Proof.KernelRun
import proofs.«105029_j57286273794622_1_alg».proof.Proof.Thread
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories that agree on the arguments, with the same result: the kernel's last boundary
    holds the reference's last stage of the launch arguments. -/
theorem algebraic : Cert.algebraic_KernelIdeal_ReferenceIdeal := by
  intro m ρ m' ρ' _ hagree
  refine ⟨fun c => Cert.KernelIdeal.Gen.W14 m ρ c (Proc.devRef .tc Cert.KernelIdeal.main_v115),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v122_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Bridge.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
